-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x32x32x32 : Shape := ⟨5, ![8, 64, 32, 32, 32]⟩
abbrev S64x64 : Shape := ⟨2, ![64, 64]⟩
abbrev S_ : Shape := ⟨0, ![]⟩

class Facts : Prop where
  bcast_S_S8x64x32x32x32 : S_.BroadcastsInDim S8x64x32x32x32 (![] : Fin 0 → Fin S8x64x32x32x32.rank)
  reducesTo_S8x64x32x32x32_S_d0_1_2_3_4 : S8x64x32x32x32.ReducesTo [0, 1, 2, 3, 4] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg4 : FVec F S64x64 .f32) (main_arg5 : FVec F S64x64 .f32) (main_arg6 : FVec F S64x64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S8x64x32x32x32 .f32) (main_arg1 : FVec F S64x64 .f32) (main_arg2 : FVec F S64x64 .f32) (main_arg3 : FVec F S64x64 .f32) (main_arg4 : FVec F S64x64 .f32) (main_arg5 : FVec F S64x64 .f32) (main_arg6 : FVec F S64x64 .f32) (main_arg7 : FVec F S64x64 .f32) : IVec S_ 1 :=
  let main_v0 : FVec F S8x64x32x32x32 .f32 := Host.absf main_arg0
  let main_cst : FVec F S_ .f32 := constant S_ .f32 0x7F800000#32
  let main_v1 : FVec F S8x64x32x32x32 .f32 := broadcastInDim S8x64x32x32x32 ![] bcast_S_S8x64x32x32x32 main_cst
  let main_v2 : IVec S8x64x32x32x32 1 := cmpf .olt main_v0 main_v1
  let main_c : IVec S_ 1 := constantI S_ 1 1#1
  let main_v3 : IVec S_ 1 := (fun x v => Host.reduce IntOp.andi x v reducesTo_S8x64x32x32x32_S_d0_1_2_3_4 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_v13 main_v16
-- ==== Kernel.lean ====
abbrev S8x64x32x32x32 : Shape := ⟨5, ![8, 64, 32, 32, 32]⟩
abbrev S64x64 : Shape := ⟨2, ![64, 64]⟩
abbrev S1x64x64 : Shape := ⟨3, ![1, 64, 64]⟩
abbrev S7x64x64 : Shape := ⟨3, ![7, 64, 64]⟩
abbrev S1x64x32x32x32 : Shape := ⟨5, ![1, 64, 32, 32, 32]⟩
abbrev S1x64x16x32x32 : Shape := ⟨5, ![1, 64, 16, 32, 32]⟩
abbrev S64x16x32x32 : Shape := ⟨4, ![64, 16, 32, 32]⟩
abbrev S64x16384 : Shape := ⟨2, ![64, 16384]⟩
abbrev S1x64x16x31x32 : Shape := ⟨5, ![1, 64, 16, 31, 32]⟩
abbrev S64x16x31x32 : Shape := ⟨4, ![64, 16, 31, 32]⟩
abbrev S1x64x16x32x31 : Shape := ⟨5, ![1, 64, 16, 32, 31]⟩
abbrev S64x16x32x31 : Shape := ⟨4, ![64, 16, 32, 31]⟩
abbrev S1x64x15x32x32 : Shape := ⟨5, ![1, 64, 15, 32, 32]⟩
abbrev S64x15x32x32 : Shape := ⟨4, ![64, 15, 32, 32]⟩
abbrev S64x15360 : Shape := ⟨2, ![64, 15360]⟩

abbrev nBuf : Space → Nat
  | .hbm => 17
  | .vmem => 5
  | .smem => 0
  | _ => 0

abbrev bufTy : (tb : Table) → Fin (tcTables nBuf tb) → BufTy
  | .hbm, ⟨0, _⟩ => ⟨S8x64x32x32x32, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S1x64x64, .f32⟩
  | .hbm, ⟨9, _⟩ => ⟨S1x64x64, .f32⟩
  | .hbm, ⟨10, _⟩ => ⟨S1x64x64, .f32⟩
  | .hbm, ⟨11, _⟩ => ⟨S1x64x64, .f32⟩
  | .hbm, ⟨12, _⟩ => ⟨S1x64x64, .f32⟩
  | .hbm, ⟨13, _⟩ => ⟨S1x64x64, .f32⟩
  | .hbm, ⟨14, _⟩ => ⟨S1x64x64, .f32⟩
  | .hbm, ⟨15, _⟩ => ⟨S7x64x64, .f32⟩
  | .hbm, ⟨16, _⟩ => ⟨S8x64x32x32x32, .f32⟩
  | .local _ .vmem, ⟨0, _⟩ => ⟨S1x64x32x32x32, .f32⟩
  | .local _ .vmem, ⟨1, _⟩ => ⟨S1x64x32x32x32, .f32⟩
  | .local _ .vmem, ⟨2, _⟩ => ⟨S7x64x64, .f32⟩
  | .local _ .vmem, ⟨3, _⟩ => ⟨S1x64x32x32x32, .f32⟩
  | .local _ .vmem, ⟨4, _⟩ => ⟨S1x64x32x32x32, .f32⟩
  | _, _ => ⟨S8x64x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x64x32x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x32x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64x64_S1x64x64_1_2 : S64x64.BroadcastsInDim S1x64x64 (![1, 2] : Fin 2 → Fin S1x64x64.rank)
  concatenates_S1x64x64_S1x64x64_S1x64x64_S1x64x64_S1x64x64_S1x64x64_S1x64x64_S7x64x64_d0 : Shape.Concatenates [S1x64x64, S1x64x64, S1x64x64, S1x64x64, S1x64x64, S1x64x64, S1x64x64] S7x64x64 0
  inb_S7x64x64_S7x64x64_0_0_0 : ∀ a, (![0, 0, 0] : Fin 3 → Nat) a + S7x64x64.size a ≤ S7x64x64.size a
  h_S7x64x64 : 0 < S7x64x64.numel
  shapeCasts_S7x64x64_S7x64x64 : S7x64x64.ShapeCasts S7x64x64
  bitsLt_bf16_f32 : FTy.bits .bf16 < FTy.bits .f32
  inb_S1x64x32x32x32_S1x64x16x32x32_0_0_0_0_0 : ∀ a, (![0, 0, 0, 0, 0] : Fin 5 → Nat) a + S1x64x16x32x32.size a ≤ S1x64x32x32x32.size a
  h_S1x64x16x32x32 : 0 < S1x64x16x32x32.numel
  shapeCasts_S1x64x16x32x32_S64x16x32x32 : S1x64x16x32x32.ShapeCasts S64x16x32x32
  slices_S7x64x64_o0_0_0_S1x64x64 : S7x64x64.Slices ![0, 0, 0] S1x64x64
  shapeCasts_S1x64x64_S64x64 : S1x64x64.ShapeCasts S64x64
  shapeCasts_S64x16x32x32_S64x16384 : S64x16x32x32.ShapeCasts S64x16384
  shapeCasts_S64x16384_S64x16x32x32 : S64x16384.ShapeCasts S64x16x32x32
  shapeCasts_S64x16x32x32_S1x64x16x32x32 : S64x16x32x32.ShapeCasts S1x64x16x32x32
  slices_S7x64x64_o3_0_0_S1x64x64 : S7x64x64.Slices ![3, 0, 0] S1x64x64
  inb_S1x64x32x32x32_S1x64x16x31x32_0_0_0_1_0 : ∀ a, (![0, 0, 0, 1, 0] : Fin 5 → Nat) a + S1x64x16x31x32.size a ≤ S1x64x32x32x32.size a
  h_S1x64x16x31x32 : 0 < S1x64x16x31x32.numel
  shapeCasts_S1x64x16x31x32_S64x16x31x32 : S1x64x16x31x32.ShapeCasts S64x16x31x32
  slices_S64x16x32x32_o0_0_0_0_S64x16x31x32 : S64x16x32x32.Slices ![0, 0, 0, 0] S64x16x31x32
  shapeCasts_S64x16x31x32_S1x64x16x31x32 : S64x16x31x32.ShapeCasts S1x64x16x31x32
  slices_S7x64x64_o4_0_0_S1x64x64 : S7x64x64.Slices ![4, 0, 0] S1x64x64
  inb_S1x64x32x32x32_S1x64x16x31x32_0_0_0_0_0 : ∀ a, (![0, 0, 0, 0, 0] : Fin 5 → Nat) a + S1x64x16x31x32.size a ≤ S1x64x32x32x32.size a
  slices_S64x16x32x32_o0_0_1_0_S64x16x31x32 : S64x16x32x32.Slices ![0, 0, 1, 0] S64x16x31x32
  slices_S7x64x64_o5_0_0_S1x64x64 : S7x64x64.Slices ![5, 0, 0] S1x64x64
  inb_S1x64x32x32x32_S1x64x16x32x31_0_0_0_0_1 : ∀ a, (![0, 0, 0, 0, 1] : Fin 5 → Nat) a + S1x64x16x32x31.size a ≤ S1x64x32x32x32.size a
  h_S1x64x16x32x31 : 0 < S1x64x16x32x31.numel
  shapeCasts_S1x64x16x32x31_S64x16x32x31 : S1x64x16x32x31.ShapeCasts S64x16x32x31
  slices_S64x16x32x32_o0_0_0_0_S64x16x32x31 : S64x16x32x32.Slices ![0, 0, 0, 0] S64x16x32x31
  shapeCasts_S64x16x32x31_S1x64x16x32x31 : S64x16x32x31.ShapeCasts S1x64x16x32x31
  slices_S7x64x64_o6_0_0_S1x64x64 : S7x64x64.Slices ![6, 0, 0] S1x64x64
  inb_S1x64x32x32x32_S1x64x16x32x31_0_0_0_0_0 : ∀ a, (![0, 0, 0, 0, 0] : Fin 5 → Nat) a + S1x64x16x32x31.size a ≤ S1x64x32x32x32.size a
  slices_S64x16x32x32_o0_0_0_1_S64x16x32x31 : S64x16x32x32.Slices ![0, 0, 0, 1] S64x16x32x31
  inb_S1x64x32x32x32_S1x64x15x32x32_0_0_0_0_0 : ∀ a, (![0, 0, 0, 0, 0] : Fin 5 → Nat) a + S1x64x15x32x32.size a ≤ S1x64x32x32x32.size a
  h_S1x64x15x32x32 : 0 < S1x64x15x32x32.numel
  shapeCasts_S1x64x15x32x32_S64x15x32x32 : S1x64x15x32x32.ShapeCasts S64x15x32x32
  inb_S1x64x32x32x32_S1x64x15x32x32_0_0_1_0_0 : ∀ a, (![0, 0, 1, 0, 0] : Fin 5 → Nat) a + S1x64x15x32x32.size a ≤ S1x64x32x32x32.size a
  slices_S7x64x64_o1_0_0_S1x64x64 : S7x64x64.Slices ![1, 0, 0] S1x64x64
  shapeCasts_S64x15x32x32_S64x15360 : S64x15x32x32.ShapeCasts S64x15360
  shapeCasts_S64x15360_S64x15x32x32 : S64x15360.ShapeCasts S64x15x32x32
  shapeCasts_S64x15x32x32_S1x64x15x32x32 : S64x15x32x32.ShapeCasts S1x64x15x32x32
  inb_S1x64x32x32x32_S1x64x16x32x32_0_0_1_0_0 : ∀ a, (![0, 0, 1, 0, 0] : Fin 5 → Nat) a + S1x64x16x32x32.size a ≤ S1x64x32x32x32.size a
  slices_S7x64x64_o2_0_0_S1x64x64 : S7x64x64.Slices ![2, 0, 0] S1x64x64
  inb_S1x64x32x32x32_S1x64x16x32x32_0_0_16_0_0 : ∀ a, (![0, 0, 16, 0, 0] : Fin 5 → Nat) a + S1x64x16x32x32.size a ≤ S1x64x32x32x32.size a
  inb_S1x64x32x32x32_S1x64x16x31x32_0_0_16_1_0 : ∀ a, (![0, 0, 16, 1, 0] : Fin 5 → Nat) a + S1x64x16x31x32.size a ≤ S1x64x32x32x32.size a
  inb_S1x64x32x32x32_S1x64x16x31x32_0_0_16_0_0 : ∀ a, (![0, 0, 16, 0, 0] : Fin 5 → Nat) a + S1x64x16x31x32.size a ≤ S1x64x32x32x32.size a
  inb_S1x64x32x32x32_S1x64x16x32x31_0_0_16_0_1 : ∀ a, (![0, 0, 16, 0, 1] : Fin 5 → Nat) a + S1x64x16x32x31.size a ≤ S1x64x32x32x32.size a
  inb_S1x64x32x32x32_S1x64x16x32x31_0_0_16_0_0 : ∀ a, (![0, 0, 16, 0, 0] : Fin 5 → Nat) a + S1x64x16x32x31.size a ≤ S1x64x32x32x32.size a
  inb_S1x64x32x32x32_S1x64x16x32x32_0_0_15_0_0 : ∀ a, (![0, 0, 15, 0, 0] : Fin 5 → Nat) a + S1x64x16x32x32.size a ≤ S1x64x32x32x32.size a
  inb_S1x64x32x32x32_S1x64x15x32x32_0_0_17_0_0 : ∀ a, (![0, 0, 17, 0, 0] : Fin 5 → Nat) a + S1x64x15x32x32.size a ≤ S1x64x32x32x32.size a
  inb_S1x64x32x32x32_S1x64x15x32x32_0_0_16_0_0 : ∀ a, (![0, 0, 16, 0, 0] : Fin 5 → Nat) a + S1x64x15x32x32.size a ≤ S1x64x32x32x32.size a
  dot_S64x64_S64x16384_S64x16384_1_0_0_1_n_n_wf : DotDims.WF S64x64 S64x16384 S64x16384 [1] [0] [0] [1] [] []
  dot_S64x64_S64x15360_S64x15360_1_0_0_1_n_n_wf : DotDims.WF S64x64 S64x15360 S64x15360 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x32x32.size a ≤ S8x64x32x32x32.size a
  hwx0_0 : ∀ i : grid0.Coords, EltTy.bits .f32 = 32 ∨ (Rect.block (s := S8x64x32x32x32) S1x64x32x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64x64.size a ≤ S7x64x64.size a
  hwx0_1 : ∀ i : grid0.Coords, EltTy.bits .f32 = 32 ∨ (Rect.block (s := S7x64x64) S7x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32x32x32.size a ≤ S8x64x32x32x32.size a
  hwx0_2 : ∀ i : grid0.Coords, EltTy.bits .f32 = 32 ∨ (Rect.block (s := S8x64x32x32x32) S1x64x32x32x32.size (cc0_transform_2 i) (hinb0_2 i)).WholeWords (EltTy.packing .f32)

variable [Facts₀]

def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf
def dot_S64x64_S64x15360_S64x15360_1_0_0_1_n_n : DotDims S64x64 S64x15360 S64x15360 where
  lhsContracting := [1]
  rhsContracting := [0]
  lhsNonContracting := [0]
  rhsNonContracting := [1]
  lhsBatch := []
  rhsBatch := []
  wf := dot_S64x64_S64x15360_S64x15360_1_0_0_1_n_n_wf

abbrev win0_0 : Pipeline.Window sig grid0 :=
  Pipeline.Window.ofSpec (Memref.whole main_arg0) S1x64x32x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S7x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64x32x32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x32x32x32 : Shape := ⟨5, ![8, 64, 32, 32, 32]⟩
abbrev S64x64 : Shape := ⟨2, ![64, 64]⟩
abbrev S8x32x32x32x64 : Shape := ⟨5, ![8, 32, 32, 32, 64]⟩
abbrev S8x31x32x32x64 : Shape := ⟨5, ![8, 31, 32, 32, 64]⟩
abbrev S_ : Shape := ⟨0, ![]⟩
abbrev S8x32x31x32x64 : Shape := ⟨5, ![8, 32, 31, 32, 64]⟩
abbrev S8x32x32x31x64 : Shape := ⟨5, ![8, 32, 32, 31, 64]⟩

abbrev nBuf : Space → Nat
  | .hbm => 47
  | .vmem => 0
  | .smem => 0
  | _ => 0

abbrev bufTy : (tb : Table) → Fin (tcTables nBuf tb) → BufTy
  | .hbm, ⟨0, _⟩ => ⟨S8x64x32x32x32, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S8x32x32x32x64, .f32⟩
  | .hbm, ⟨9, _⟩ => ⟨S8x32x32x32x64, .f32⟩
  | .hbm, ⟨10, _⟩ => ⟨S8x31x32x32x64, .f32⟩
  | .hbm, ⟨11, _⟩ => ⟨S8x31x32x32x64, .f32⟩
  | .hbm, ⟨12, _⟩ => ⟨S_, .i32⟩
  | .hbm, ⟨13, _⟩ => ⟨S_, .f32⟩
  | .hbm, ⟨14, _⟩ => ⟨S8x32x32x32x64, .f32⟩
  | .hbm, ⟨15, _⟩ => ⟨S8x32x32x32x64, .f32⟩
  | .hbm, ⟨16, _⟩ => ⟨S8x31x32x32x64, .f32⟩
  | .hbm, ⟨17, _⟩ => ⟨S8x31x32x32x64, .f32⟩
  | .hbm, ⟨18, _⟩ => ⟨S_, .i32⟩
  | .hbm, ⟨19, _⟩ => ⟨S_, .f32⟩
  | .hbm, ⟨20, _⟩ => ⟨S8x32x32x32x64, .f32⟩
  | .hbm, ⟨21, _⟩ => ⟨S8x32x32x32x64, .f32⟩
  | .hbm, ⟨22, _⟩ => ⟨S8x32x31x32x64, .f32⟩
  | .hbm, ⟨23, _⟩ => ⟨S8x32x31x32x64, .f32⟩
  | .hbm, ⟨24, _⟩ => ⟨S_, .i32⟩
  | .hbm, ⟨25, _⟩ => ⟨S_, .f32⟩
  | .hbm, ⟨26, _⟩ => ⟨S8x32x32x32x64, .f32⟩
  | .hbm, ⟨27, _⟩ => ⟨S8x32x32x32x64, .f32⟩
  | .hbm, ⟨28, _⟩ => ⟨S8x32x31x32x64, .f32⟩
  | .hbm, ⟨29, _⟩ => ⟨S8x32x31x32x64, .f32⟩
  | .hbm, ⟨30, _⟩ => ⟨S_, .i32⟩
  | .hbm, ⟨31, _⟩ => ⟨S_, .f32⟩
  | .hbm, ⟨32, _⟩ => ⟨S8x32x32x32x64, .f32⟩
  | .hbm, ⟨33, _⟩ => ⟨S8x32x32x32x64, .f32⟩
  | .hbm, ⟨34, _⟩ => ⟨S8x32x32x31x64, .f32⟩
  | .hbm, ⟨35, _⟩ => ⟨S8x32x32x31x64, .f32⟩
  | .hbm, ⟨36, _⟩ => ⟨S_, .i32⟩
  | .hbm, ⟨37, _⟩ => ⟨S_, .f32⟩
  | .hbm, ⟨38, _⟩ => ⟨S8x32x32x32x64, .f32⟩
  | .hbm, ⟨39, _⟩ => ⟨S8x32x32x32x64, .f32⟩
  | .hbm, ⟨40, _⟩ => ⟨S8x32x32x31x64, .f32⟩
  | .hbm, ⟨41, _⟩ => ⟨S8x32x32x31x64, .f32⟩
  | .hbm, ⟨42, _⟩ => ⟨S_, .i32⟩
  | .hbm, ⟨43, _⟩ => ⟨S_, .f32⟩
  | .hbm, ⟨44, _⟩ => ⟨S8x32x32x32x64, .f32⟩
  | .hbm, ⟨45, _⟩ => ⟨S8x32x32x32x64, .f32⟩
  | .hbm, ⟨46, _⟩ => ⟨S8x64x32x32x32, .f32⟩
  | _, _ => ⟨S8x64x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_call2_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_call3_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_call4_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_call5_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]

class Facts₀ : Prop where
  transposes_S8x64x32x32x32_S8x32x32x32x64_0_2_3_4_1 : S8x64x32x32x32.Transposes [0, 2, 3, 4, 1] S8x32x32x32x64
  slices_S8x32x32x32x64_S8x31x32x32x64_0_0_0_0_0 : S8x32x32x32x64.Slices ![0, 0, 0, 0, 0] S8x31x32x32x64
  pads_S8x31x32x32x64_S8x32x32x32x64_000_100_000_000_000 : S8x31x32x32x64.Pads (![0, 1, 0, 0, 0] : Fin 5 → Nat) ![0, 0, 0, 0, 0] ![0, 0, 0, 0, 0] S8x32x32x32x64
  h_S_ : 0 < S_.numel
  slices_S8x32x32x32x64_S8x31x32x32x64_0_1_0_0_0 : S8x32x32x32x64.Slices ![0, 1, 0, 0, 0] S8x31x32x32x64
  pads_S8x31x32x32x64_S8x32x32x32x64_000_010_000_000_000 : S8x31x32x32x64.Pads (![0, 0, 0, 0, 0] : Fin 5 → Nat) ![0, 1, 0, 0, 0] ![0, 0, 0, 0, 0] S8x32x32x32x64
  slices_S8x32x32x32x64_S8x32x31x32x64_0_0_0_0_0 : S8x32x32x32x64.Slices ![0, 0, 0, 0, 0] S8x32x31x32x64
  pads_S8x32x31x32x64_S8x32x32x32x64_000_000_100_000_000 : S8x32x31x32x64.Pads (![0, 0, 1, 0, 0] : Fin 5 → Nat) ![0, 0, 0, 0, 0] ![0, 0, 0, 0, 0] S8x32x32x32x64
  slices_S8x32x32x32x64_S8x32x31x32x64_0_0_1_0_0 : S8x32x32x32x64.Slices ![0, 0, 1, 0, 0] S8x32x31x32x64
  pads_S8x32x31x32x64_S8x32x32x32x64_000_000_010_000_000 : S8x32x31x32x64.Pads (![0, 0, 0, 0, 0] : Fin 5 → Nat) ![0, 0, 1, 0, 0] ![0, 0, 0, 0, 0] S8x32x32x32x64
  slices_S8x32x32x32x64_S8x32x32x31x64_0_0_0_0_0 : S8x32x32x32x64.Slices ![0, 0, 0, 0, 0] S8x32x32x31x64
  pads_S8x32x32x31x64_S8x32x32x32x64_000_000_000_100_000 : S8x32x32x31x64.Pads (![0, 0, 0, 1, 0] : Fin 5 → Nat) ![0, 0, 0, 0, 0] ![0, 0, 0, 0, 0] S8x32x32x32x64
  slices_S8x32x32x32x64_S8x32x32x31x64_0_0_0_1_0 : S8x32x32x32x64.Slices ![0, 0, 0, 1, 0] S8x32x32x31x64
  pads_S8x32x32x31x64_S8x32x32x32x64_000_000_000_010_000 : S8x32x32x31x64.Pads (![0, 0, 0, 0, 0] : Fin 5 → Nat) ![0, 0, 0, 1, 0] ![0, 0, 0, 0, 0] S8x32x32x32x64
  transposes_S8x32x32x32x64_S8x64x32x32x32_0_4_1_2_3 : S8x32x32x32x64.Transposes [0, 4, 1, 2, 3] S8x64x32x32x32
  dot_S8x32x32x32x64_S64x64_S8x32x32x32x64_4_1_0123_0_n_n_wf : DotDims.WF S8x32x32x32x64 S64x64 S8x32x32x32x64 [4] [1] [0, 1, 2, 3] [0] [] []
  dot_S8x31x32x32x64_S64x64_S8x31x32x32x64_4_1_0123_0_n_n_wf : DotDims.WF S8x31x32x32x64 S64x64 S8x31x32x32x64 [4] [1] [0, 1, 2, 3] [0] [] []
  dot_S8x32x31x32x64_S64x64_S8x32x31x32x64_4_1_0123_0_n_n_wf : DotDims.WF S8x32x31x32x64 S64x64 S8x32x31x32x64 [4] [1] [0, 1, 2, 3] [0] [] []
  dot_S8x32x32x31x64_S64x64_S8x32x32x31x64_4_1_0123_0_n_n_wf : DotDims.WF S8x32x32x31x64 S64x64 S8x32x32x31x64 [4] [1] [0, 1, 2, 3] [0] [] []

variable [Facts₀]

def dot_S8x32x32x32x64_S64x64_S8x32x32x32x64_4_1_0123_0_n_n : DotDims S8x32x32x32x64 S64x64 S8x32x32x32x64 where
  lhsContracting := [4]
  rhsContracting := [1]
  lhsNonContracting := [0, 1, 2, 3]
  rhsNonContracting := [0]
  lhsBatch := []
  rhsBatch := []
  wf := dot_S8x32x32x32x64_S64x64_S8x32x32x32x64_4_1_0123_0_n_n_wf
def dot_S8x31x32x32x64_S64x64_S8x31x32x32x64_4_1_0123_0_n_n : DotDims S8x31x32x32x64 S64x64 S8x31x32x32x64 where
  lhsContracting := [4]
  rhsContracting := [1]
  lhsNonContracting := [0, 1, 2, 3]
  rhsNonContracting := [0]
  lhsBatch := []
  rhsBatch := []
  wf := dot_S8x31x32x32x64_S64x64_S8x31x32x32x64_4_1_0123_0_n_n_wf
def dot_S8x32x31x32x64_S64x64_S8x32x31x32x64_4_1_0123_0_n_n : DotDims S8x32x31x32x64 S64x64 S8x32x31x32x64 where
  lhsContracting := [4]
  rhsContracting := [1]
  lhsNonContracting := [0, 1, 2, 3]
  rhsNonContracting := [0]
  lhsBatch := []
  rhsBatch := []
  wf := dot_S8x32x31x32x64_S64x64_S8x32x31x32x64_4_1_0123_0_n_n_wf
def dot_S8x32x32x31x64_S64x64_S8x32x32x31x64_4_1_0123_0_n_n : DotDims S8x32x32x31x64 S64x64 S8x32x32x31x64 where
  lhsContracting := [4]
  rhsContracting := [1]
  lhsNonContracting := [0, 1, 2, 3]
  rhsNonContracting := [0]
  lhsBatch := []
  rhsBatch := []
  wf := dot_S8x32x32x31x64_S64x64_S8x32x32x31x64_4_1_0123_0_n_n_wf

class Facts : Prop extends Facts₀ where

variable [Facts]
-- ==== Proof.KKit.lean ====
/-
  The launch side of the one region, for any float instance: what the program's buffers hold when the region is
  entered (the seven weights each broadcast to a 1 × 64 × 64 slab and the slabs joined along the leading axis into the
  7 × 64 × 64 stack, the arguments themselves untouched), that @main is exactly those eight host operations followed
  by the region, each window's block at a grid point read off its array, that the two input windows' staging
  buffers hold their blocks whenever the body runs, and that a run ending in the pipeline's frame post leaves all
  eight argument arrays as they were.
-/
import proofs.«155031_j28982439313416_1_alg».proof.Proof.Gen.Kernel.Launch
import proofs.«155031_j28982439313416_1_alg».proof.Proof.Gen.Kernel.Skeleton
import proofs.«155031_j28982439313416_1_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: after the eight host operations. -/
abbrev V (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x window's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds its block at every point: fetched at the first point, and its index
    does not move afterwards, so what the body leaves in place is still the block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post leaves the eight
    argument arrays unchanged: x is a staged input, the seven weights are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The staging memrefs at a point -/

/-- One staging buffer of the output window, through which its contents are stated. -/
abbrev VO0_2 : View sig .tc .vmem S1x64x32x32x32 .f32 := (Memref.whole cc0_stg2_0 : Memref sig .tc .vmem S1x64x32x32x32 .f32).view
/-- Each window's current staging memref at point t, as the pipeline passes it, and its wholeness. -/
abbrev ms0_0 (t : Fin cfg0.N) : Memref sig .tc .vmem S1x64x32x32x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7x64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x32x32x32 .f32 := win0_2.stage (cfg0.slots t 2)
abbrev hs0_2 (t : Fin cfg0.N) : (ms0_2 t).IsWhole := hstage0_2 ((cfg0.slots t 2).cast nbuf0_2)

end Cert.Kernel.Hand

end
-- ==== Proof.KRun.lean ====
/-
  The kernel body run once, symbolically, on any whole staging memrefs and for any float instance: with the x
  block and the weight stack held at their contents and the output buffer at anything, the body runs to its end,
  gives the two inputs back as they were, and leaves the output buffer overwritten by a list of stored pieces (the
  fourteen read-modify-write stores, last first) which the run itself finds.
-/
import proofs.«155031_j28982439313416_1_alg».proof.Proof.KKit

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- What the body's stores leave in the output's staging memref, as pieces (last first), with the proof that the body
    runs from the inputs at their contents and the output at anything to the continuation holding the inputs as they
    were and the output with its pieces written. -/
noncomputable def kernelRun0_A (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec F S1x64x32x32x32 .f32) (x1 : Vec F S7x64x64 .f32) :
    { L2 : List (View.Piece (Elt F) S1x64x32x32x32 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__kernel i arg1 harg1 arg2 harg2 arg3 harg3) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KFrame.lean ====
/-
  The frame of the one region, for any float instance. The body's fourteen stores include, for each half of the
  T axis, one store of the whole 64 × 16 × 32 × 32 half-block (the mixing by w_self), so the stored pieces cover the
  output block and what the body leaves there does not depend on what the buffer held before. With that, the
  pipeline's proof data is: the arrays as the region finds them; after the body each input buffer still at its block
  and the output buffer at the pieces read back; nothing carried between grid points. The body obligation at a
  grid point is the body's run at that point's staging memrefs and blocks, and the library's frame run then gives:
  every execution terminates, nothing faults, every array of the pipeline ends at what the proof data says and every
  other buffer as the region found it.
-/
import proofs.«155031_j28982439313416_1_alg».proof.Proof.KRun

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces cover the output block: two of them are whole half-blocks along T. -/
theorem cover0_A_2 (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec F S1x64x32x32x32 .f32) (x1 : Vec F S7x64x64 .f32) (y : S1x64x32x32x32.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S1x64x16x32x32.size (by sl_kernel_rfl) y

/-- What the run leaves in the output's staging buffer: its pieces read back over junk. -/
def out0_A_2 (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec F S1x64x32x32x32 .f32) (x1 : Vec F S7x64x64 .f32) : Vec F S1x64x32x32x32 .f32 :=
  VO0_2.read (Elt F) (VO0_2.writes (Elt F) VO0_2.junk (kernelRun0_A c i arg1 harg1 arg2 harg2 arg3 harg3 x0 x1).1)

/-! ## What the output holds after each point -/

/-- What the output's staging buffer holds after the body at point t: the run's contents at the point's memrefs and
    input blocks. -/
def outsAt0 (c : Dev nD) (t : Fin cfg0.N) : Vec F S1x64x32x32x32 .f32 :=
  out0_A_2 c (grid0.coords t) (ms0_0 t) (hs0_0 t) (ms0_1 t) (hs0_1 t) (ms0_2 t) (hs0_2 t) (iblk m c 0 t) (iblk m c 1 t)

/-! ## The pipeline's proof data -/

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end, faults nowhere, and leaves its eight argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KIKit.lean ====
/-
  The launch side of the one region, for any float instance: what the program's buffers hold when the region is
  entered (the seven weights each broadcast to a 1 × 64 × 64 slab and the slabs joined along the leading axis into the
  7 × 64 × 64 stack, the arguments themselves untouched), that @main is exactly those eight host operations followed
  by the region, each window's block at a grid point read off its array, that the two input windows' staging
  buffers hold their blocks whenever the body runs, and that a run ending in the pipeline's frame post leaves all
  eight argument arrays as they were.
-/
import proofs.«155031_j28982439313416_1_alg».proof.Proof.Gen.KernelIdeal.Launch
import proofs.«155031_j28982439313416_1_alg».proof.Proof.Gen.KernelIdeal.Skeleton
import proofs.«155031_j28982439313416_1_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: after the eight host operations. -/
abbrev V (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x window's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds its block at every point: fetched at the first point, and its index
    does not move afterwards, so what the body leaves in place is still the block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post leaves the eight
    argument arrays unchanged: x is a staged input, the seven weights are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The staging memrefs at a point -/

/-- One staging buffer of the output window, through which its contents are stated. -/
abbrev VO0_2 : View sig .tc .vmem S1x64x32x32x32 .f32 := (Memref.whole cc0_stg2_0 : Memref sig .tc .vmem S1x64x32x32x32 .f32).view
/-- Each window's current staging memref at point t, as the pipeline passes it, and its wholeness. -/
abbrev ms0_0 (t : Fin cfg0.N) : Memref sig .tc .vmem S1x64x32x32x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7x64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x32x32x32 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KIRun.lean ====
/-
  The kernel body run once, symbolically, on any whole staging memrefs and for any float instance: with the x
  block and the weight stack held at their contents and the output buffer at anything, the body runs to its end,
  gives the two inputs back as they were, and leaves the output buffer overwritten by a list of stored pieces (the
  fourteen read-modify-write stores, last first) which the run itself finds.
-/
import proofs.«155031_j28982439313416_1_alg».proof.Proof.KIKit

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- What the body's stores leave in the output's staging memref, as pieces (last first), with the proof that the body
    runs from the inputs at their contents and the output at anything to the continuation holding the inputs as they
    were and the output with its pieces written. -/
noncomputable def kernelRun0_A (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec F S1x64x32x32x32 .f32) (x1 : Vec F S7x64x64 .f32) :
    { L2 : List (View.Piece (Elt F) S1x64x32x32x32 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__kernel i arg1 harg1 arg2 harg2 arg3 harg3) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KIFrame.lean ====
/-
  The frame of the one region, for any float instance. The body's fourteen stores include, for each half of the
  T axis, one store of the whole 64 × 16 × 32 × 32 half-block (the mixing by w_self), so the stored pieces cover the
  output block and what the body leaves there does not depend on what the buffer held before. With that, the
  pipeline's proof data is: the arrays as the region finds them; after the body each input buffer still at its block
  and the output buffer at the pieces read back; nothing carried between grid points. The body obligation at a
  grid point is the body's run at that point's staging memrefs and blocks, and the library's frame run then gives:
  every execution terminates, nothing faults, every array of the pipeline ends at what the proof data says and every
  other buffer as the region found it.
-/
import proofs.«155031_j28982439313416_1_alg».proof.Proof.KIRun

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces cover the output block: two of them are whole half-blocks along T. -/
theorem cover0_A_2 (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec F S1x64x32x32x32 .f32) (x1 : Vec F S7x64x64 .f32) (y : S1x64x32x32x32.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S1x64x16x32x32.size (by sl_kernel_rfl) y

/-- What the run leaves in the output's staging buffer: its pieces read back over junk. -/
def out0_A_2 (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec F S1x64x32x32x32 .f32) (x1 : Vec F S7x64x64 .f32) : Vec F S1x64x32x32x32 .f32 :=
  VO0_2.read (Elt F) (VO0_2.writes (Elt F) VO0_2.junk (kernelRun0_A c i arg1 harg1 arg2 harg2 arg3 harg3 x0 x1).1)

/-! ## What the output holds after each point -/

/-- What the output's staging buffer holds after the body at point t: the run's contents at the point's memrefs and
    input blocks. -/
def outsAt0 (c : Dev nD) (t : Fin cfg0.N) : Vec F S1x64x32x32x32 .f32 :=
  out0_A_2 c (grid0.coords t) (ms0_0 t) (hs0_0 t) (ms0_1 t) (hs0_1 t) (ms0_2 t) (hs0_2 t) (iblk m c 0 t) (iblk m c 1 t)

/-! ## The pipeline's proof data -/

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end, faults nowhere, and leaves its eight argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Payloads.lean ====
import proofs.«155031_j28982439313416_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.DirConv.Pay

open Idealize.ShloMosaic Idealize.SL.Sem Idealize.ShloMosaic.ValueIdx Cert.KernelIdeal Cert.KernelIdeal.Gen

/-! # The body's fourteen stored blocks, entry by entry

Inside one grid point the body holds the block x of shape (1, 64, 32, 32, 32) (unit, channel k, T, R, C)
and the seven 64x64 weight matrices stacked as v0 of shape (7, 64, 64) (row j, output channel o, input
channel k). Over the extended reals a change of number format is the identity, a reshape keeps the
row-major position, and a matrix product accumulated into zero is the plain sum over the contracted
index. So "weight row j applied to a block V of shape (64, T', 32, 32)" read at (o, t, r, c) is

    ∑ k : Fin 64, v0 (j, o, k) * V (k, t, r, c),

and every block the body stores is either such a sum or a block read back from the output plus such a
sum, possibly with V read through a window of 31 rows or 31 columns that starts at offset 0 or 1.
The lemmas `store1_apply` … `store14_apply` state this for the fourteen stores in program order, each
for the stored term as a function of the vectors the body loaded. -/

/-! ### The product of a 64x64 weight with a (64, 16, 32, 32) block flattened to 64x16384 -/

theorem lhs16_0 (i : S64x16384.Idx) (q : dot_S64x64_S64x16384_S64x16384_1_0_0_1_n_n.contr.Idx) :
    (dot_S64x64_S64x16384_S64x16384_1_0_0_1_n_n.lhsIdx i q 0).val = (i 0).val := by
  unfold DotDims.lhsIdx
  rw [dif_neg (show ¬(0 : Fin S64x64.rank) ∈ dot_S64x64_S64x16384_S64x16384_1_0_0_1_n_n.lhsBatch by decide),
    dif_pos (show (0 : Fin S64x64.rank) ∈ dot_S64x64_S64x16384_S64x16384_1_0_0_1_n_n.lhsNonContracting by decide)]
  rfl

theorem lhs16_1 (i : S64x16384.Idx) (q : dot_S64x64_S64x16384_S64x16384_1_0_0_1_n_n.contr.Idx) :
    (dot_S64x64_S64x16384_S64x16384_1_0_0_1_n_n.lhsIdx i q 1).val = (q ⟨0, by decide⟩).val :=
  dot_S64x64_S64x16384_S64x16384_1_0_0_1_n_n.lhsIdx_val_of_single rfl i q

theorem rhs16_0 (i : S64x16384.Idx) (q : dot_S64x64_S64x16384_S64x16384_1_0_0_1_n_n.contr.Idx) :
    (dot_S64x64_S64x16384_S64x16384_1_0_0_1_n_n.rhsIdx i q 0).val = (q ⟨0, by decide⟩).val :=
  dot_S64x64_S64x16384_S64x16384_1_0_0_1_n_n.rhsIdx_val_of_single rfl i q

theorem rhs16_1 (i : S64x16384.Idx) (q : dot_S64x64_S64x16384_S64x16384_1_0_0_1_n_n.contr.Idx) :
    (dot_S64x64_S64x16384_S64x16384_1_0_0_1_n_n.rhsIdx i q 1).val = (i 1).val := by
  unfold DotDims.rhsIdx
  rw [dif_neg (show ¬(1 : Fin S64x16384.rank) ∈ dot_S64x64_S64x16384_S64x16384_1_0_0_1_n_n.rhsBatch by decide),
    dif_pos (show (1 : Fin S64x16384.rank) ∈ dot_S64x64_S64x16384_S64x16384_1_0_0_1_n_n.rhsNonContracting by decide)]
  rfl

/-- The left operand's index at output (o, p) and contraction position k is (o, k). -/
theorem lhsIdx16 (o : Fin 64) (p : Fin 16384) (k : Fin 64) :
    dot_S64x64_S64x16384_S64x16384_1_0_0_1_n_n.lhsIdx (ix2 o p) ((contrEquiv1 dot_S64x64_S64x16384_S64x16384_1_0_0_1_n_n 64 rfl rfl).symm k) = ix2 o k := by
  have hk := contrEquiv1_symm_val dot_S64x64_S64x16384_S64x16384_1_0_0_1_n_n 64 rfl rfl k
  exact funext fun a => Fin.ext (by
    match a with
    | ⟨0, _⟩ => exact lhs16_0 _ _
    | ⟨1, _⟩ => exact (lhs16_1 _ _).trans hk)

/-- The right operand's index at output (o, p) and contraction position k is (k, p). -/
theorem rhsIdx16 (o : Fin 64) (p : Fin 16384) (k : Fin 64) :
    dot_S64x64_S64x16384_S64x16384_1_0_0_1_n_n.rhsIdx (ix2 o p) ((contrEquiv1 dot_S64x64_S64x16384_S64x16384_1_0_0_1_n_n 64 rfl rfl).symm k) = ix2 k p := by
  have hk := contrEquiv1_symm_val dot_S64x64_S64x16384_S64x16384_1_0_0_1_n_n 64 rfl rfl k
  exact funext fun a => Fin.ext (by
    match a with
    | ⟨0, _⟩ => exact (rhs16_0 _ _).trans hk
    | ⟨1, _⟩ => exact rhs16_1 _ _)

/-- A 64x64 weight times a (64, 16, 32, 32) block flattened to 64x16384, accumulated into zero and
    viewed again as (64, 16, 32, 32): at (o, t, r, c) it is the sum over k of W(o,k) * V(k,t,r,c). -/
theorem proj16_apply (W2 : FVec Ideal S64x64 .bf16) (V : FVec Ideal S64x16x32x32 .f32)
    (hb : FTy.bits .bf16 < FTy.bits .f32)
    (h1 : S64x16x32x32.ShapeCasts S64x16384) (h2 : S64x16384.ShapeCasts S64x16x32x32)
    (o : Fin 64) (t : Fin 16) (r c : Fin 32) :
    shapeCast S64x16x32x32 (matmul dot_S64x64_S64x16384_S64x16384_1_0_0_1_n_n none W2
        (shapeCast S64x16384 (truncf .bf16 V hb) h1)
        (constant (F := Ideal) S64x16384 .f32 0x00000000#32)) h2 (ix4 o t r c)
      = ∑ k : Fin 64, W2 (ix2 o k) * V (ix4 k t r c) := by
  have ht := t.isLt
  have hr := r.isLt
  have hc := c.isLt
  have hp : (t.val * 32 + r.val) * 32 + c.val < 16384 := by omega
  refine (shapeCast_apply _ h2 (ix4 o t r c) (ix2 o (⟨(t.val * 32 + r.val) * 32 + c.val, hp⟩ : Fin 16384)) (by
    rw [Shape.rowMajor_val_two, Shape.rowMajor_val_four]
    show o.val * 16384 + ((t.val * 32 + r.val) * 32 + c.val) = ((o.val * 16 + t.val) * 32 + r.val) * 32 + c.val
    omega)).trans ?_
  refine (Ideal.matmul_constant_zero_apply dot_S64x64_S64x16384_S64x16384_1_0_0_1_n_n none W2 _ _).trans ?_
  rw [← Equiv.sum_comp (contrEquiv1 dot_S64x64_S64x16384_S64x16384_1_0_0_1_n_n 64 rfl rfl).symm]
  refine Finset.sum_congr rfl fun k _ => ?_
  rw [lhsIdx16, rhsIdx16]
  refine congrArg (W2 (ix2 o k) * ·) ?_
  exact shapeCast_apply _ h1 _ (ix4 k t r c) (by
    rw [Shape.rowMajor_val_two, Shape.rowMajor_val_four]
    show ((k.val * 16 + t.val) * 32 + r.val) * 32 + c.val = k.val * 16384 + ((t.val * 32 + r.val) * 32 + c.val)
    omega)

/-! ### The product of a 64x64 weight with a (64, 15, 32, 32) block flattened to 64x15360 -/

theorem lhs15_0 (i : S64x15360.Idx) (q : dot_S64x64_S64x15360_S64x15360_1_0_0_1_n_n.contr.Idx) :
    (dot_S64x64_S64x15360_S64x15360_1_0_0_1_n_n.lhsIdx i q 0).val = (i 0).val := by
  unfold DotDims.lhsIdx
  rw [dif_neg (show ¬(0 : Fin S64x64.rank) ∈ dot_S64x64_S64x15360_S64x15360_1_0_0_1_n_n.lhsBatch by decide),
    dif_pos (show (0 : Fin S64x64.rank) ∈ dot_S64x64_S64x15360_S64x15360_1_0_0_1_n_n.lhsNonContracting by decide)]
  rfl

theorem lhs15_1 (i : S64x15360.Idx) (q : dot_S64x64_S64x15360_S64x15360_1_0_0_1_n_n.contr.Idx) :
    (dot_S64x64_S64x15360_S64x15360_1_0_0_1_n_n.lhsIdx i q 1).val = (q ⟨0, by decide⟩).val :=
  dot_S64x64_S64x15360_S64x15360_1_0_0_1_n_n.lhsIdx_val_of_single rfl i q

theorem rhs15_0 (i : S64x15360.Idx) (q : dot_S64x64_S64x15360_S64x15360_1_0_0_1_n_n.contr.Idx) :
    (dot_S64x64_S64x15360_S64x15360_1_0_0_1_n_n.rhsIdx i q 0).val = (q ⟨0, by decide⟩).val :=
  dot_S64x64_S64x15360_S64x15360_1_0_0_1_n_n.rhsIdx_val_of_single rfl i q

theorem rhs15_1 (i : S64x15360.Idx) (q : dot_S64x64_S64x15360_S64x15360_1_0_0_1_n_n.contr.Idx) :
    (dot_S64x64_S64x15360_S64x15360_1_0_0_1_n_n.rhsIdx i q 1).val = (i 1).val := by
  unfold DotDims.rhsIdx
  rw [dif_neg (show ¬(1 : Fin S64x15360.rank) ∈ dot_S64x64_S64x15360_S64x15360_1_0_0_1_n_n.rhsBatch by decide),
    dif_pos (show (1 : Fin S64x15360.rank) ∈ dot_S64x64_S64x15360_S64x15360_1_0_0_1_n_n.rhsNonContracting by decide)]
  rfl

/-- The left operand's index at output (o, p) and contraction position k is (o, k). -/
theorem lhsIdx15 (o : Fin 64) (p : Fin 15360) (k : Fin 64) :
    dot_S64x64_S64x15360_S64x15360_1_0_0_1_n_n.lhsIdx (ix2 o p) ((contrEquiv1 dot_S64x64_S64x15360_S64x15360_1_0_0_1_n_n 64 rfl rfl).symm k) = ix2 o k := by
  have hk := contrEquiv1_symm_val dot_S64x64_S64x15360_S64x15360_1_0_0_1_n_n 64 rfl rfl k
  exact funext fun a => Fin.ext (by
    match a with
    | ⟨0, _⟩ => exact lhs15_0 _ _
    | ⟨1, _⟩ => exact (lhs15_1 _ _).trans hk)

/-- The right operand's index at output (o, p) and contraction position k is (k, p). -/
theorem rhsIdx15 (o : Fin 64) (p : Fin 15360) (k : Fin 64) :
    dot_S64x64_S64x15360_S64x15360_1_0_0_1_n_n.rhsIdx (ix2 o p) ((contrEquiv1 dot_S64x64_S64x15360_S64x15360_1_0_0_1_n_n 64 rfl rfl).symm k) = ix2 k p := by
  have hk := contrEquiv1_symm_val dot_S64x64_S64x15360_S64x15360_1_0_0_1_n_n 64 rfl rfl k
  exact funext fun a => Fin.ext (by
    match a with
    | ⟨0, _⟩ => exact (rhs15_0 _ _).trans hk
    | ⟨1, _⟩ => exact rhs15_1 _ _)

/-- A 64x64 weight times a (64, 15, 32, 32) block flattened to 64x15360, accumulated into zero and
    viewed again as (64, 15, 32, 32): at (o, t, r, c) it is the sum over k of W(o,k) * V(k,t,r,c). -/
theorem proj15_apply (W2 : FVec Ideal S64x64 .bf16) (V : FVec Ideal S64x15x32x32 .f32)
    (hb : FTy.bits .bf16 < FTy.bits .f32)
    (h1 : S64x15x32x32.ShapeCasts S64x15360) (h2 : S64x15360.ShapeCasts S64x15x32x32)
    (o : Fin 64) (t : Fin 15) (r c : Fin 32) :
    shapeCast S64x15x32x32 (matmul dot_S64x64_S64x15360_S64x15360_1_0_0_1_n_n none W2
        (shapeCast S64x15360 (truncf .bf16 V hb) h1)
        (constant (F := Ideal) S64x15360 .f32 0x00000000#32)) h2 (ix4 o t r c)
      = ∑ k : Fin 64, W2 (ix2 o k) * V (ix4 k t r c) := by
  have ht := t.isLt
  have hr := r.isLt
  have hc := c.isLt
  have hp : (t.val * 32 + r.val) * 32 + c.val < 15360 := by omega
  refine (shapeCast_apply _ h2 (ix4 o t r c) (ix2 o (⟨(t.val * 32 + r.val) * 32 + c.val, hp⟩ : Fin 15360)) (by
    rw [Shape.rowMajor_val_two, Shape.rowMajor_val_four]
    show o.val * 15360 + ((t.val * 32 + r.val) * 32 + c.val) = ((o.val * 15 + t.val) * 32 + r.val) * 32 + c.val
    omega)).trans ?_
  refine (Ideal.matmul_constant_zero_apply dot_S64x64_S64x15360_S64x15360_1_0_0_1_n_n none W2 _ _).trans ?_
  rw [← Equiv.sum_comp (contrEquiv1 dot_S64x64_S64x15360_S64x15360_1_0_0_1_n_n 64 rfl rfl).symm]
  refine Finset.sum_congr rfl fun k _ => ?_
  rw [lhsIdx15, rhsIdx15]
  refine congrArg (W2 (ix2 o k) * ·) ?_
  exact shapeCast_apply _ h1 _ (ix4 k t r c) (by
    rw [Shape.rowMajor_val_two, Shape.rowMajor_val_four]
    show ((k.val * 15 + t.val) * 32 + r.val) * 32 + c.val = k.val * 15360 + ((t.val * 32 + r.val) * 32 + c.val)
    omega)

/-! ### Unit leading axis, weight rows, shifted windows -/

/-- Dropping a leading axis of extent one: (a, b, c, d) reads (0, a, b, c, d). -/
theorem dropUnit_apply {α : Type} {n1 n2 n3 n4 : Nat} (v : (⟨5, ![1, n1, n2, n3, n4]⟩ : Shape).Idx → α)
    (h : (⟨5, ![1, n1, n2, n3, n4]⟩ : Shape).ShapeCasts ⟨4, ![n1, n2, n3, n4]⟩)
    (u : Fin 1) (a : Fin n1) (b : Fin n2) (c : Fin n3) (d : Fin n4) :
    shapeCast ⟨4, ![n1, n2, n3, n4]⟩ v h (ix4 a b c d) = v (ix5 u a b c d) := by
  have hu : u.val = 0 := by have := u.isLt; omega
  refine shapeCast_apply v h (ix4 a b c d) (ix5 u a b c d) ?_
  rw [Shape.rowMajor_val_five, Shape.rowMajor_val_four]
  show (((u.val * n1 + a.val) * n2 + b.val) * n3 + c.val) * n4 + d.val
    = ((a.val * n2 + b.val) * n3 + c.val) * n4 + d.val
  rw [hu, Nat.zero_mul, Nat.zero_add]

/-- Adding a leading axis of extent one: (u, a, b, c, d) reads (a, b, c, d). -/
theorem addUnit_apply {α : Type} {n1 n2 n3 n4 : Nat} (v : (⟨4, ![n1, n2, n3, n4]⟩ : Shape).Idx → α)
    (h : (⟨4, ![n1, n2, n3, n4]⟩ : Shape).ShapeCasts ⟨5, ![1, n1, n2, n3, n4]⟩)
    (u : Fin 1) (a : Fin n1) (b : Fin n2) (c : Fin n3) (d : Fin n4) :
    shapeCast ⟨5, ![1, n1, n2, n3, n4]⟩ v h (ix5 u a b c d) = v (ix4 a b c d) := by
  have hu : u.val = 0 := by have := u.isLt; omega
  refine shapeCast_apply v h (ix5 u a b c d) (ix4 a b c d) ?_
  rw [Shape.rowMajor_val_five, Shape.rowMajor_val_four]
  show ((a.val * n2 + b.val) * n3 + c.val) * n4 + d.val
    = (((u.val * n1 + a.val) * n2 + b.val) * n3 + c.val) * n4 + d.val
  rw [hu, Nat.zero_mul, Nat.zero_add]

/-- Row j of the stacked weights, viewed as a 64x64 matrix: entry (o, k) is entry (j, o, k). -/
theorem wslice_apply (W7 : FVec Ideal S7x64x64 .bf16) (j : Nat) (hj : j < 7)
    (hs : S7x64x64.Slices ![j, 0, 0] S1x64x64) (hc : S1x64x64.ShapeCasts S64x64) (o k : Fin 64) :
    shapeCast S64x64 (extractStridedSlice S1x64x64 ![j, 0, 0] W7 hs) hc (ix2 o k)
      = W7 (ix3 (⟨j, hj⟩ : Fin 7) o k) := by
  refine (shapeCast_apply _ hc (ix2 o k) (ix3 (0 : Fin 1) o k) (by
    rw [Shape.rowMajor_val_two, Shape.rowMajor_val_three]
    show (0 * 64 + o.val) * 64 + k.val = o.val * 64 + k.val
    omega)).trans ?_
  exact extractStridedSlice_apply _ W7 hs _ (ix3 (⟨j, hj⟩ : Fin 7) o k) (fun a => match a with
    | ⟨0, _⟩ => by show j = j + 0; omega
    | ⟨1, _⟩ => by show o.val = 0 + o.val; omega
    | ⟨2, _⟩ => by show k.val = 0 + k.val; omega)

/-- The weights as the body uses them (a format change, which is the identity on extended reals). -/
theorem pay2_apply (v0 : Vec Ideal S7x64x64 .f32) (i : S7x64x64.Idx) : k0_pay2 (F := Ideal) v0 i = v0 i := by
  unfold k0_pay2
  exact congrFun (shapeCast_self v0 shapeCasts_S7x64x64_S7x64x64) i

/-- A window of 31 rows starting at row δ (δ = 0 or 1) of a (64, 16, 32, 32) block. -/
theorem sliceR_apply (P : FVec Ideal S64x16x32x32 .f32) (δ : Nat) (hδ : δ ≤ 1)
    (hs : S64x16x32x32.Slices ![0, 0, δ, 0] S64x16x31x32) (o : Fin 64) (t : Fin 16) (r : Fin 31) (c : Fin 32) :
    extractStridedSlice S64x16x31x32 ![0, 0, δ, 0] P hs (ix4 o t r c)
      = P (ix4 o t (⟨r.val + δ, by have := r.isLt; omega⟩ : Fin 32) c) :=
  extractStridedSlice_apply _ P hs _ _ (fun a => match a with
    | ⟨0, _⟩ => by show o.val = 0 + o.val; omega
    | ⟨1, _⟩ => by show t.val = 0 + t.val; omega
    | ⟨2, _⟩ => by show r.val + δ = δ + r.val; omega
    | ⟨3, _⟩ => by show c.val = 0 + c.val; omega)

/-- A window of 31 columns starting at column δ (δ = 0 or 1) of a (64, 16, 32, 32) block. -/
theorem sliceC_apply (P : FVec Ideal S64x16x32x32 .f32) (δ : Nat) (hδ : δ ≤ 1)
    (hs : S64x16x32x32.Slices ![0, 0, 0, δ] S64x16x32x31) (o : Fin 64) (t : Fin 16) (r : Fin 32) (c : Fin 31) :
    extractStridedSlice S64x16x32x31 ![0, 0, 0, δ] P hs (ix4 o t r c)
      = P (ix4 o t r (⟨c.val + δ, by have := c.isLt; omega⟩ : Fin 32)) :=
  extractStridedSlice_apply _ P hs _ _ (fun a => match a with
    | ⟨0, _⟩ => by show o.val = 0 + o.val; omega
    | ⟨1, _⟩ => by show t.val = 0 + t.val; omega
    | ⟨2, _⟩ => by show r.val = 0 + r.val; omega
    | ⟨3, _⟩ => by show c.val + δ = δ + c.val; omega)

/-- Weight row j applied to a (64, 16, 32, 32) block V: at (o, t, r, c) the sum over k of
    v0(j,o,k) * V(k,t,r,c). -/
theorem projw16_apply (v0 : Vec Ideal S7x64x64 .f32) (j : Nat) (hj : j < 7) (V : FVec Ideal S64x16x32x32 .f32)
    (hs : S7x64x64.Slices ![j, 0, 0] S1x64x64) (hc : S1x64x64.ShapeCasts S64x64)
    (hb : FTy.bits .bf16 < FTy.bits .f32)
    (h1 : S64x16x32x32.ShapeCasts S64x16384) (h2 : S64x16384.ShapeCasts S64x16x32x32)
    (o : Fin 64) (t : Fin 16) (r c : Fin 32) :
    shapeCast S64x16x32x32 (matmul dot_S64x64_S64x16384_S64x16384_1_0_0_1_n_n none
        (shapeCast S64x64 (extractStridedSlice S1x64x64 ![j, 0, 0] (k0_pay2 v0) hs) hc)
        (shapeCast S64x16384 (truncf .bf16 V hb) h1)
        (constant (F := Ideal) S64x16384 .f32 0x00000000#32)) h2 (ix4 o t r c)
      = ∑ k : Fin 64, v0 (ix3 (⟨j, hj⟩ : Fin 7) o k) * V (ix4 k t r c) := by
  refine (proj16_apply _ V hb h1 h2 o t r c).trans ?_
  refine Finset.sum_congr rfl fun k _ => ?_
  refine congrArg (· * V (ix4 k t r c)) ?_
  exact (wslice_apply (k0_pay2 v0) j hj hs hc o k).trans (pay2_apply v0 _)

/-- Weight row j applied to a (64, 15, 32, 32) block V: at (o, t, r, c) the sum over k of
    v0(j,o,k) * V(k,t,r,c). -/
theorem projw15_apply (v0 : Vec Ideal S7x64x64 .f32) (j : Nat) (hj : j < 7) (V : FVec Ideal S64x15x32x32 .f32)
    (hs : S7x64x64.Slices ![j, 0, 0] S1x64x64) (hc : S1x64x64.ShapeCasts S64x64)
    (hb : FTy.bits .bf16 < FTy.bits .f32)
    (h1 : S64x15x32x32.ShapeCasts S64x15360) (h2 : S64x15360.ShapeCasts S64x15x32x32)
    (o : Fin 64) (t : Fin 15) (r c : Fin 32) :
    shapeCast S64x15x32x32 (matmul dot_S64x64_S64x15360_S64x15360_1_0_0_1_n_n none
        (shapeCast S64x64 (extractStridedSlice S1x64x64 ![j, 0, 0] (k0_pay2 v0) hs) hc)
        (shapeCast S64x15360 (truncf .bf16 V hb) h1)
        (constant (F := Ideal) S64x15360 .f32 0x00000000#32)) h2 (ix4 o t r c)
      = ∑ k : Fin 64, v0 (ix3 (⟨j, hj⟩ : Fin 7) o k) * V (ix4 k t r c) := by
  refine (proj15_apply _ V hb h1 h2 o t r c).trans ?_
  refine Finset.sum_congr rfl fun k _ => ?_
  refine congrArg (· * V (ix4 k t r c)) ?_
  exact (wslice_apply (k0_pay2 v0) j hj hs hc o k).trans (pay2_apply v0 _)

/-- A block stored with a leading unit axis, after adding a product block to what was loaded
    (also with a leading unit axis): the loaded value plus the product, entry by entry. -/
theorem acc_apply {n1 n2 n3 n4 : Nat} (A : FVec Ideal ⟨5, ![1, n1, n2, n3, n4]⟩ .f32)
    (P : FVec Ideal ⟨4, ![n1, n2, n3, n4]⟩ .f32)
    (h1 : (⟨5, ![1, n1, n2, n3, n4]⟩ : Shape).ShapeCasts ⟨4, ![n1, n2, n3, n4]⟩)
    (h2 : (⟨4, ![n1, n2, n3, n4]⟩ : Shape).ShapeCasts ⟨5, ![1, n1, n2, n3, n4]⟩)
    (u : Fin 1) (a : Fin n1) (b : Fin n2) (c : Fin n3) (d : Fin n4) :
    shapeCast ⟨5, ![1, n1, n2, n3, n4]⟩ (addf (shapeCast ⟨4, ![n1, n2, n3, n4]⟩ A h1) P) h2 (ix5 u a b c d)
      = A (ix5 u a b c d) + P (ix4 a b c d) := by
  refine (addUnit_apply _ h2 u a b c d).trans ?_
  refine (addf_apply _ _ _).trans ?_
  exact congrArg (· + P (ix4 a b c d)) (dropUnit_apply A h1 u a b c d)

/-! ### The fourteen stores of the body, in program order

Each payload is read at (u, o, t, r, c): the block loaded from the output buffer (when the store
accumulates) plus the sum over the 64 input channels k of weight(j, o, k) * x(0, k, t, r', c'). -/

/-- Store 1: weight row 0 applied to the x block. -/
theorem store1_apply (v0 : Vec Ideal S7x64x64 .f32) (v3 : Vec Ideal S1x64x16x32x32 .f32)
    (u : Fin 1) (o : Fin 64) (t : Fin 16) (r : Fin 32) (c : Fin 32) :
    k0_pay4 (F := Ideal) v0 v3 (ix5 u o t r c)
      = ∑ k : Fin 64, v0 (ix3 (0 : Fin 7) o k) * v3 (ix5 (0 : Fin 1) k t r c) := by
  unfold k0_pay4
  refine (addUnit_apply _ _ u o t r c).trans ?_
  refine (projw16_apply v0 0 (by omega) (k0_pay3 v3) _ _ _ _ _ o t _ _).trans ?_
  refine Finset.sum_congr rfl fun k _ => congrArg (v0 (ix3 (0 : Fin 7) o k) * ·) ?_
  unfold k0_pay3
  exact dropUnit_apply v3 _ 0 k t _ _

/-- Store 2: the loaded block plus weight row 3 applied to the x block, read at its rows 0..30. -/
theorem store2_apply (v0 : Vec Ideal S7x64x64 .f32) (v3 : Vec Ideal S1x64x16x32x32 .f32) (v20 : Vec Ideal S1x64x16x31x32 .f32)
    (u : Fin 1) (o : Fin 64) (t : Fin 16) (r : Fin 31) (c : Fin 32) :
    k0_pay5 (F := Ideal) v0 v3 v20 (ix5 u o t r c)
      = v20 (ix5 u o t r c) + ∑ k : Fin 64, v0 (ix3 (3 : Fin 7) o k) * v3 (ix5 (0 : Fin 1) k t (⟨r.val, by have := r.isLt; omega⟩ : Fin 32) c) := by
  unfold k0_pay5
  refine (acc_apply v20 _ _ _ u o t r c).trans ?_
  refine congrArg (v20 (ix5 u o t r c) + ·) ?_
  refine (sliceR_apply _ 0 (by omega) _ o t r c).trans ?_
  refine (projw16_apply v0 3 (by omega) (k0_pay3 v3) _ _ _ _ _ o t _ _).trans ?_
  refine Finset.sum_congr rfl fun k _ => congrArg (v0 (ix3 (3 : Fin 7) o k) * ·) ?_
  unfold k0_pay3
  exact dropUnit_apply v3 _ 0 k t _ _

/-- Store 3: the loaded block plus weight row 4 applied to the x block, read at its rows 1..31. -/
theorem store3_apply (v0 : Vec Ideal S7x64x64 .f32) (v3 : Vec Ideal S1x64x16x32x32 .f32) (v33 : Vec Ideal S1x64x16x31x32 .f32)
    (u : Fin 1) (o : Fin 64) (t : Fin 16) (r : Fin 31) (c : Fin 32) :
    k0_pay8 (F := Ideal) (k0_pay6 v0) (k0_pay7 v3) (constant (F := Ideal) S64x16384 .f32 0x00000000#32) v33 (ix5 u o t r c)
      = v33 (ix5 u o t r c) + ∑ k : Fin 64, v0 (ix3 (4 : Fin 7) o k) * v3 (ix5 (0 : Fin 1) k t (⟨r.val + 1, by have := r.isLt; omega⟩ : Fin 32) c) := by
  unfold k0_pay8 k0_pay6 k0_pay7
  refine (acc_apply v33 _ _ _ u o t r c).trans ?_
  refine congrArg (v33 (ix5 u o t r c) + ·) ?_
  refine (sliceR_apply _ 1 (by omega) _ o t r c).trans ?_
  refine (projw16_apply v0 4 (by omega) (k0_pay3 v3) _ _ _ _ _ o t _ _).trans ?_
  refine Finset.sum_congr rfl fun k _ => congrArg (v0 (ix3 (4 : Fin 7) o k) * ·) ?_
  unfold k0_pay3
  exact dropUnit_apply v3 _ 0 k t _ _

/-- Store 4: the loaded block plus weight row 5 applied to the x block, read at its columns 0..30. -/
theorem store4_apply (v0 : Vec Ideal S7x64x64 .f32) (v3 : Vec Ideal S1x64x16x32x32 .f32) (v46 : Vec Ideal S1x64x16x32x31 .f32)
    (u : Fin 1) (o : Fin 64) (t : Fin 16) (r : Fin 32) (c : Fin 31) :
    k0_pay9 (F := Ideal) (k0_pay2 v0) (k0_pay3 v3) v46 (ix5 u o t r c)
      = v46 (ix5 u o t r c) + ∑ k : Fin 64, v0 (ix3 (5 : Fin 7) o k) * v3 (ix5 (0 : Fin 1) k t r (⟨c.val, by have := c.isLt; omega⟩ : Fin 32)) := by
  unfold k0_pay9
  refine (acc_apply v46 _ _ _ u o t r c).trans ?_
  refine congrArg (v46 (ix5 u o t r c) + ·) ?_
  refine (sliceC_apply _ 0 (by omega) _ o t r c).trans ?_
  refine (projw16_apply v0 5 (by omega) (k0_pay3 v3) _ _ _ _ _ o t _ _).trans ?_
  refine Finset.sum_congr rfl fun k _ => congrArg (v0 (ix3 (5 : Fin 7) o k) * ·) ?_
  unfold k0_pay3
  exact dropUnit_apply v3 _ 0 k t _ _

/-- Store 5: the loaded block plus weight row 6 applied to the x block, read at its columns 1..31. -/
theorem store5_apply (v0 : Vec Ideal S7x64x64 .f32) (v3 : Vec Ideal S1x64x16x32x32 .f32) (v59 : Vec Ideal S1x64x16x32x31 .f32)
    (u : Fin 1) (o : Fin 64) (t : Fin 16) (r : Fin 32) (c : Fin 31) :
    k0_pay12 (F := Ideal) (k0_pay10 v59) (k0_pay11 (k0_pay2 v0) (k0_pay3 v3)) (ix5 u o t r c)
      = v59 (ix5 u o t r c) + ∑ k : Fin 64, v0 (ix3 (6 : Fin 7) o k) * v3 (ix5 (0 : Fin 1) k t r (⟨c.val + 1, by have := c.isLt; omega⟩ : Fin 32)) := by
  unfold k0_pay12 k0_pay10 k0_pay11
  refine (acc_apply v59 _ _ _ u o t r c).trans ?_
  refine congrArg (v59 (ix5 u o t r c) + ·) ?_
  refine (sliceC_apply _ 1 (by omega) _ o t r c).trans ?_
  refine (projw16_apply v0 6 (by omega) (k0_pay3 v3) _ _ _ _ _ o t _ _).trans ?_
  refine Finset.sum_congr rfl fun k _ => congrArg (v0 (ix3 (6 : Fin 7) o k) * ·) ?_
  unfold k0_pay3
  exact dropUnit_apply v3 _ 0 k t _ _

/-- Store 6: the loaded block plus weight row 1 applied to a 15-deep x block. -/
theorem store6_apply (v0 : Vec Ideal S7x64x64 .f32) (v66 : Vec Ideal S1x64x15x32x32 .f32) (v68 : Vec Ideal S1x64x15x32x32 .f32)
    (u : Fin 1) (o : Fin 64) (t : Fin 15) (r : Fin 32) (c : Fin 32) :
    k0_pay13 (F := Ideal) (k0_pay2 v0) v66 v68 (ix5 u o t r c)
      = v68 (ix5 u o t r c) + ∑ k : Fin 64, v0 (ix3 (1 : Fin 7) o k) * v66 (ix5 (0 : Fin 1) k t r c) := by
  unfold k0_pay13
  refine (acc_apply v68 _ _ _ u o t r c).trans ?_
  refine congrArg (v68 (ix5 u o t r c) + ·) ?_
  refine (projw15_apply v0 1 (by omega) (shapeCast S64x15x32x32 v66 shapeCasts_S1x64x15x32x32_S64x15x32x32) _ _ _ _ _ o t _ _).trans ?_
  refine Finset.sum_congr rfl fun k _ => congrArg (v0 (ix3 (1 : Fin 7) o k) * ·) ?_
  exact dropUnit_apply v66 _ 0 k t _ _

/-- Store 7: the loaded block plus weight row 2 applied to the x block. -/
theorem store7_apply (v0 : Vec Ideal S7x64x64 .f32) (v80 : Vec Ideal S1x64x16x32x32 .f32) (v82 : Vec Ideal S1x64x16x32x32 .f32)
    (u : Fin 1) (o : Fin 64) (t : Fin 16) (r : Fin 32) (c : Fin 32) :
    k0_pay17 (F := Ideal) (k0_pay14 v82) (k0_pay15 (k0_pay2 v0)) (k0_pay16 v80) (constant (F := Ideal) S64x16384 .f32 0x00000000#32) (ix5 u o t r c)
      = v82 (ix5 u o t r c) + ∑ k : Fin 64, v0 (ix3 (2 : Fin 7) o k) * v80 (ix5 (0 : Fin 1) k t r c) := by
  unfold k0_pay17 k0_pay14 k0_pay15 k0_pay16
  refine (acc_apply v82 _ _ _ u o t r c).trans ?_
  refine congrArg (v82 (ix5 u o t r c) + ·) ?_
  refine (projw16_apply v0 2 (by omega) (shapeCast S64x16x32x32 v80 shapeCasts_S1x64x16x32x32_S64x16x32x32) _ _ _ _ _ o t _ _).trans ?_
  refine Finset.sum_congr rfl fun k _ => congrArg (v0 (ix3 (2 : Fin 7) o k) * ·) ?_
  exact dropUnit_apply v80 _ 0 k t _ _

/-- Store 8: weight row 0 applied to the x block (second chunk). -/
theorem store8_apply (v0 : Vec Ideal S7x64x64 .f32) (v94 : Vec Ideal S1x64x16x32x32 .f32)
    (u : Fin 1) (o : Fin 64) (t : Fin 16) (r : Fin 32) (c : Fin 32) :
    k0_pay19 (F := Ideal) (k0_pay2 v0) v94 (ix5 u o t r c)
      = ∑ k : Fin 64, v0 (ix3 (0 : Fin 7) o k) * v94 (ix5 (0 : Fin 1) k t r c) := by
  unfold k0_pay19
  refine (addUnit_apply _ _ u o t r c).trans ?_
  refine (projw16_apply v0 0 (by omega) (k0_pay18 v94) _ _ _ _ _ o t _ _).trans ?_
  refine Finset.sum_congr rfl fun k _ => congrArg (v0 (ix3 (0 : Fin 7) o k) * ·) ?_
  unfold k0_pay18
  exact dropUnit_apply v94 _ 0 k t _ _

/-- Store 9: the loaded block plus weight row 3 applied to the x block, read at its rows 0..30 (second chunk). -/
theorem store9_apply (v0 : Vec Ideal S7x64x64 .f32) (v94 : Vec Ideal S1x64x16x32x32 .f32) (v111 : Vec Ideal S1x64x16x31x32 .f32)
    (u : Fin 1) (o : Fin 64) (t : Fin 16) (r : Fin 31) (c : Fin 32) :
    k0_pay20 (F := Ideal) (k0_pay2 v0) v94 v111 (ix5 u o t r c)
      = v111 (ix5 u o t r c) + ∑ k : Fin 64, v0 (ix3 (3 : Fin 7) o k) * v94 (ix5 (0 : Fin 1) k t (⟨r.val, by have := r.isLt; omega⟩ : Fin 32) c) := by
  unfold k0_pay20
  refine (acc_apply v111 _ _ _ u o t r c).trans ?_
  refine congrArg (v111 (ix5 u o t r c) + ·) ?_
  refine (sliceR_apply _ 0 (by omega) _ o t r c).trans ?_
  refine (projw16_apply v0 3 (by omega) (k0_pay18 v94) _ _ _ _ _ o t _ _).trans ?_
  refine Finset.sum_congr rfl fun k _ => congrArg (v0 (ix3 (3 : Fin 7) o k) * ·) ?_
  unfold k0_pay18
  exact dropUnit_apply v94 _ 0 k t _ _

/-- Store 10: the loaded block plus weight row 4 applied to the x block, read at its rows 1..31 (second chunk). -/
theorem store10_apply (v0 : Vec Ideal S7x64x64 .f32) (v94 : Vec Ideal S1x64x16x32x32 .f32) (v124 : Vec Ideal S1x64x16x31x32 .f32)
    (u : Fin 1) (o : Fin 64) (t : Fin 16) (r : Fin 31) (c : Fin 32) :
    k0_pay21 (F := Ideal) (k0_pay2 v0) (k0_pay18 v94) v124 (ix5 u o t r c)
      = v124 (ix5 u o t r c) + ∑ k : Fin 64, v0 (ix3 (4 : Fin 7) o k) * v94 (ix5 (0 : Fin 1) k t (⟨r.val + 1, by have := r.isLt; omega⟩ : Fin 32) c) := by
  unfold k0_pay21
  refine (acc_apply v124 _ _ _ u o t r c).trans ?_
  refine congrArg (v124 (ix5 u o t r c) + ·) ?_
  refine (sliceR_apply _ 1 (by omega) _ o t r c).trans ?_
  refine (projw16_apply v0 4 (by omega) (k0_pay18 v94) _ _ _ _ _ o t _ _).trans ?_
  refine Finset.sum_congr rfl fun k _ => congrArg (v0 (ix3 (4 : Fin 7) o k) * ·) ?_
  unfold k0_pay18
  exact dropUnit_apply v94 _ 0 k t _ _

/-- Store 11: the loaded block plus weight row 5 applied to the x block, read at its columns 0..30 (second chunk). -/
theorem store11_apply (v0 : Vec Ideal S7x64x64 .f32) (v94 : Vec Ideal S1x64x16x32x32 .f32) (v137 : Vec Ideal S1x64x16x32x31 .f32)
    (u : Fin 1) (o : Fin 64) (t : Fin 16) (r : Fin 32) (c : Fin 31) :
    k0_pay22 (F := Ideal) (k0_pay2 v0) (k0_pay18 v94) v137 (ix5 u o t r c)
      = v137 (ix5 u o t r c) + ∑ k : Fin 64, v0 (ix3 (5 : Fin 7) o k) * v94 (ix5 (0 : Fin 1) k t r (⟨c.val, by have := c.isLt; omega⟩ : Fin 32)) := by
  unfold k0_pay22
  refine (acc_apply v137 _ _ _ u o t r c).trans ?_
  refine congrArg (v137 (ix5 u o t r c) + ·) ?_
  refine (sliceC_apply _ 0 (by omega) _ o t r c).trans ?_
  refine (projw16_apply v0 5 (by omega) (k0_pay18 v94) _ _ _ _ _ o t _ _).trans ?_
  refine Finset.sum_congr rfl fun k _ => congrArg (v0 (ix3 (5 : Fin 7) o k) * ·) ?_
  unfold k0_pay18
  exact dropUnit_apply v94 _ 0 k t _ _

/-- Store 12: the loaded block plus weight row 6 applied to the x block, read at its columns 1..31 (second chunk). -/
theorem store12_apply (v0 : Vec Ideal S7x64x64 .f32) (v94 : Vec Ideal S1x64x16x32x32 .f32) (v150 : Vec Ideal S1x64x16x32x31 .f32)
    (u : Fin 1) (o : Fin 64) (t : Fin 16) (r : Fin 32) (c : Fin 31) :
    k0_pay24 (F := Ideal) (k0_pay23 (k0_pay2 v0) (k0_pay18 v94)) v150 (ix5 u o t r c)
      = v150 (ix5 u o t r c) + ∑ k : Fin 64, v0 (ix3 (6 : Fin 7) o k) * v94 (ix5 (0 : Fin 1) k t r (⟨c.val + 1, by have := c.isLt; omega⟩ : Fin 32)) := by
  unfold k0_pay24 k0_pay23
  refine (acc_apply v150 _ _ _ u o t r c).trans ?_
  refine congrArg (v150 (ix5 u o t r c) + ·) ?_
  refine (sliceC_apply _ 1 (by omega) _ o t r c).trans ?_
  refine (projw16_apply v0 6 (by omega) (k0_pay18 v94) _ _ _ _ _ o t _ _).trans ?_
  refine Finset.sum_congr rfl fun k _ => congrArg (v0 (ix3 (6 : Fin 7) o k) * ·) ?_
  unfold k0_pay18
  exact dropUnit_apply v94 _ 0 k t _ _

/-- Store 13: the loaded block plus weight row 1 applied to the x block (second chunk). -/
theorem store13_apply (v0 : Vec Ideal S7x64x64 .f32) (v157 : Vec Ideal S1x64x16x32x32 .f32) (v159 : Vec Ideal S1x64x16x32x32 .f32)
    (u : Fin 1) (o : Fin 64) (t : Fin 16) (r : Fin 32) (c : Fin 32) :
    k0_pay25 (F := Ideal) (k0_pay2 v0) v157 v159 (ix5 u o t r c)
      = v159 (ix5 u o t r c) + ∑ k : Fin 64, v0 (ix3 (1 : Fin 7) o k) * v157 (ix5 (0 : Fin 1) k t r c) := by
  unfold k0_pay25
  refine (acc_apply v159 _ _ _ u o t r c).trans ?_
  refine congrArg (v159 (ix5 u o t r c) + ·) ?_
  refine (projw16_apply v0 1 (by omega) (shapeCast S64x16x32x32 v157 shapeCasts_S1x64x16x32x32_S64x16x32x32) _ _ _ _ _ o t _ _).trans ?_
  refine Finset.sum_congr rfl fun k _ => congrArg (v0 (ix3 (1 : Fin 7) o k) * ·) ?_
  exact dropUnit_apply v157 _ 0 k t _ _

/-- Store 14: the loaded block plus weight row 2 applied to a 15-deep x block (second chunk). -/
theorem store14_apply (v0 : Vec Ideal S7x64x64 .f32) (v171 : Vec Ideal S1x64x15x32x32 .f32) (v173 : Vec Ideal S1x64x15x32x32 .f32)
    (u : Fin 1) (o : Fin 64) (t : Fin 15) (r : Fin 32) (c : Fin 32) :
    k0_pay1 (F := Ideal) (k0_pay2 v0) (k0_pay26 v171) (k0_pay27 v173) (ix5 u o t r c)
      = v173 (ix5 u o t r c) + ∑ k : Fin 64, v0 (ix3 (2 : Fin 7) o k) * v171 (ix5 (0 : Fin 1) k t r c) := by
  unfold k0_pay1 k0_pay26 k0_pay27
  refine (acc_apply v173 _ _ _ u o t r c).trans ?_
  refine congrArg (v173 (ix5 u o t r c) + ·) ?_
  refine (projw15_apply v0 2 (by omega) (shapeCast S64x15x32x32 v171 shapeCasts_S1x64x15x32x32_S64x15x32x32) _ _ _ _ _ o t _ _).trans ?_
  refine Finset.sum_congr rfl fun k _ => congrArg (v0 (ix3 (2 : Fin 7) o k) * ·) ?_
  exact dropUnit_apply v171 _ 0 k t _ _

end Cert.DirConv.Pay

end
-- ==== Proof.Spec.lean ====
/-
  The directional convolution as ONE function of the argument arrays, index by index.

  x is an array over (b, k, t, r, c) with extents 8 × 64 × 32 × 32 × 32; each of the seven weights is a 64 × 64
  matrix over (o, k). The channel mixing of x by a weight w at the position (b, t, r, c) and output channel o is
  the finite sum  proj w x b o t r c = Σ_k w(o,k) · x(b,k,t,r,c)  over the extended reals.
  The result at (b, o, t, r, c) is the mixing by w_self at the position itself plus, for each of the three spatial
  axes, the mixing by the "plus" weight at the previous position along that axis (absent at coordinate 0) and the
  mixing by the "minus" weight at the next position along it (absent at coordinate 31). An absent term is the
  extended real 0, the neutral element of the sum, so "no addition there" and "adding a zero padding" are one value.
  Only the commutative-monoid structure of the extended reals under + is used to reorder the seven terms; nothing
  here needs the entries to be finite.
-/
import Idealize.ShloMosaic.PureOps.Ideal
import Idealize.ShloMosaic.Lib.ValueIdx

noncomputable section

namespace Cert.DirConv

open Idealize.ShloMosaic Idealize.ShloMosaic.ValueIdx
open scoped BigOperators

/-- The shape of x and of the result: (b, channel, t, r, c). -/
abbrev SX : Shape := ⟨5, ![8, 64, 32, 32, 32]⟩
/-- The shape of one weight: (output channel, input channel). -/
abbrev SW : Shape := ⟨2, ![64, 64]⟩

/-- Channel mixing at one position: Σ_k w(o,k) · x(b,k,t,r,c). -/
def proj (w : SW.Idx → EReal) (x : SX.Idx → EReal) (b : Fin 8) (o : Fin 64) (t r c : Fin 32) : EReal :=
  ∑ k : Fin 64, w (ix2 o k) * x (ix5 b k t r c)

/-- The position before n on an axis of extent 32 (meaningful when 0 < n). -/
def prv (n : Fin 32) : Fin 32 := ⟨n.val - 1, by have := n.isLt; omega⟩
/-- The position after n on an axis of extent 32 (meaningful when n < 31). -/
def nxt (n : Fin 32) : Fin 32 := ⟨(n.val + 1) % 32, Nat.mod_lt _ (by decide)⟩

theorem prv_val (n : Fin 32) : (prv n).val = n.val - 1 := rfl
theorem nxt_val (n : Fin 32) (h : n.val < 31) : (nxt n).val = n.val + 1 := by
  show (n.val + 1) % 32 = n.val + 1
  exact Nat.mod_eq_of_lt (by omega)

section terms
variable (x : SX.Idx → EReal) (ws wtp wtm wrp wrm wcp wcm : SW.Idx → EReal)
variable (b : Fin 8) (o : Fin 64) (t r c : Fin 32)

/-- The seven terms at (b, o, t, r, c). -/
def tSelf : EReal := proj ws x b o t r c
def tTp : EReal := if 0 < t.val then proj wtp x b o (prv t) r c else 0
def tTm : EReal := if t.val < 31 then proj wtm x b o (nxt t) r c else 0
def tRp : EReal := if 0 < r.val then proj wrp x b o t (prv r) c else 0
def tRm : EReal := if r.val < 31 then proj wrm x b o t (nxt r) c else 0
def tCp : EReal := if 0 < c.val then proj wcp x b o t r (prv c) else 0
def tCm : EReal := if c.val < 31 then proj wcm x b o t r (nxt c) else 0

/-- The result at explicit coordinates: the seven terms, summed in the order self, t+, t-, r+, r-, c+, c-. -/
def Gc : EReal :=
  tSelf x ws b o t r c + tTp x wtp b o t r c + tTm x wtm b o t r c + tRp x wrp b o t r c + tRm x wrm b o t r c
    + tCp x wcp b o t r c + tCm x wcm b o t r c

/-- The same seven terms summed in the order self, r+, r-, c+, c-, t+, t-: one value, addition of extended reals
    being commutative and associative. -/
theorem Gc_reorder :
    tSelf x ws b o t r c + tRp x wrp b o t r c + tRm x wrm b o t r c + tCp x wcp b o t r c + tCm x wcm b o t r c
      + tTp x wtp b o t r c + tTm x wtm b o t r c
    = Gc x ws wtp wtm wrp wrm wcp wcm b o t r c := by
  unfold Gc
  ac_rfl

end terms

/-- THE SPECIFICATION: the result array as a function of the eight argument arrays. -/
def G (x : SX.Idx → EReal) (ws wtp wtm wrp wrm wcp wcm : SW.Idx → EReal) : SX.Idx → EReal := fun i =>
  Gc x ws wtp wtm wrp wrm wcp wcm (i 0) (i 1) (i 2) (i 3) (i 4)

theorem G_ix5 (x : SX.Idx → EReal) (ws wtp wtm wrp wrm wcp wcm : SW.Idx → EReal)
    (b : Fin 8) (o : Fin 64) (t r c : Fin 32) :
    G x ws wtp wtm wrp wrm wcp wcm (ix5 b o t r c) = Gc x ws wtp wtm wrp wrm wcp wcm b o t r c := rfl

end Cert.DirConv

end
-- ==== Proof.KIValue.lean ====
/-
  What the kernel body leaves in the output block, entry by entry, at the exact instance.

  The body's fourteen stores act on the (64, 32, 32, 32) block in two halves of the T axis. In each half the first
  store writes the channel mixing by w_self over the whole half, and each of the next six reads a rectangle of the
  block back, adds to it one shifted channel mixing (by the weights of r+, r-, c+, c-, t+, t- in that order, the
  rectangle leaving out the border row, column or T-position where the shifted neighbour does not exist) and stores it
  in place. What a list of stores leaves at an index is the value of the last store whose rectangle holds the index,
  so store by store the entry is the entry before it plus that store's term inside its rectangle and unchanged
  outside, where the specification's term is the extended real 0. Below T-position 16 the entry is settled by the
  first seven stores and the last seven do not touch it; from 16 on it is settled by the last seven. Either way the
  entry ends at the seven terms of the specification summed in the order self, r+, r-, c+, c-, t+, t-, which is the
  specification's value, addition of extended reals being commutative and associative.
-/
import proofs.«155031_j28982439313416_1_alg».proof.Proof.KIFrame
import proofs.«155031_j28982439313416_1_alg».proof.Proof.Payloads
import proofs.«155031_j28982439313416_1_alg».proof.Proof.Spec
import Idealize.ShloMosaic.Lib.Pipeline.FrameBody
import Idealize.ShloMosaic.Lib.ValueIdx

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.DirConv Cert.DirConv.Pay

/-! # The output block after the body, entry by entry

The body makes fourteen stores into the output block (unit, channel o, T, R, C), seven for the T-positions
below 16 and seven for the T-positions from 16 on. In each half the first store writes the channel mixing
of x by the self weight over the whole half-block; each of the other six reads a rectangle of the block
back, adds the channel mixing by one directional weight of x read at the neighbouring position, and
writes the rectangle again. A rectangle leaves out exactly the positions whose neighbour in that
direction does not exist (row 0 or row 31, column 0 or column 31, T-position 0 or 31), so at every entry
the value after a store is the value before it plus the specification's term for that direction, the
term being 0 where the neighbour is absent. What the stores leave is read as a function of the list of
stored pieces alone: under the last piece's rectangle it is that piece's payload, elsewhere it is what
the earlier pieces leave. Summing the seven terms in the order the body adds them and reordering gives
the specification's value. -/

/-! ### Loads read at coordinates -/

/-- The whole-array load of the stacked weights reads the weights. -/
theorem wload_apply (arg2 : Memref sig .tc .vmem S7x64x64 .f32) (harg2 : arg2.IsWhole) (x1 : Vec Ideal S7x64x64 .f32)
    (inb : ∀ a, (![0, 0, 0] : Fin 3 → Nat) a + S7x64x64.size a ≤ S7x64x64.size a) (j : Fin 7) (o k : Fin 64) :
    View.readAt (Elt Ideal) arg2.view (Rect.unit (s := S7x64x64) ![0, 0, 0] S7x64x64.size inb).toLoadRect
        (harg2.unread x1) (ix3 j o k) = x1 (ix3 j o k) := by
  refine (congrFun (harg2.read_unread x1) _).trans (congrArg x1 (funext fun a => Fin.ext ?_))
  match a with
  | ⟨0, _⟩ => show 0 + 1 * j.val = j.val; omega
  | ⟨1, _⟩ => show 0 + 1 * o.val = o.val; omega
  | ⟨2, _⟩ => show 0 + 1 * k.val = k.val; omega

/-- A load of nT consecutive T-positions of the x block, starting at offT, reads x at T-position offT + t. -/
theorem xload_apply (arg1 : Memref sig .tc .vmem S1x64x32x32x32 .f32) (harg1 : arg1.IsWhole)
    (x0 : Vec Ideal S1x64x32x32x32 .f32) (offT nT : Nat)
    (inb : ∀ a, (![0, 0, offT, 0, 0] : Fin 5 → Nat) a + (![1, 64, nT, 32, 32] : Fin 5 → Nat) a ≤ S1x64x32x32x32.size a)
    (k : Fin 64) (t : Fin nT) (r c : Fin 32) (T' : Fin 32) (hT' : T'.val = offT + t.val) :
    View.readAt (Elt Ideal) arg1.view
        (Rect.unit (s := S1x64x32x32x32) ![0, 0, offT, 0, 0] ![1, 64, nT, 32, 32] inb).toLoadRect
        (harg1.unread x0) (ix5 (0 : Fin 1) k t r c) = x0 (ix5 (0 : Fin 1) k T' r c) := by
  refine (congrFun (harg1.read_unread x0) _).trans (congrArg x0 (funext fun a => Fin.ext ?_))
  match a with
  | ⟨0, _⟩ => rfl
  | ⟨1, _⟩ => show 0 + 1 * k.val = k.val; omega
  | ⟨2, _⟩ => show offT + 1 * t.val = T'.val; omega
  | ⟨3, _⟩ => show 0 + 1 * r.val = r.val; omega
  | ⟨4, _⟩ => show 0 + 1 * c.val = c.val; omega

/-- The 64-term sum a stored block holds, over the loaded weights and a loaded x block, is the channel
    mixing of the specification at the position the load's offset puts it. -/
theorem sum_to_proj (arg1 : Memref sig .tc .vmem S1x64x32x32x32 .f32) (harg1 : arg1.IsWhole)
    (arg2 : Memref sig .tc .vmem S7x64x64 .f32) (harg2 : arg2.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (j : Fin 7) (wj : SW.Idx → EReal) (hj : ∀ o k : Fin 64, x1 (ix3 j o k) = wj (ix2 o k))
    (inb2 : ∀ a, (![0, 0, 0] : Fin 3 → Nat) a + S7x64x64.size a ≤ S7x64x64.size a)
    (offT nT : Nat)
    (inb1 : ∀ a, (![0, 0, offT, 0, 0] : Fin 5 → Nat) a + (![1, 64, nT, 32, 32] : Fin 5 → Nat) a ≤ S1x64x32x32x32.size a)
    (o : Fin 64) (t : Fin nT) (r c : Fin 32) (T' R' C' : Fin 32)
    (hT' : T'.val = offT + t.val) (hR' : R'.val = r.val) (hC' : C'.val = c.val) :
    ∑ k : Fin 64,
        View.readAt (Elt Ideal) arg2.view (Rect.unit (s := S7x64x64) ![0, 0, 0] S7x64x64.size inb2).toLoadRect
            (harg2.unread x1) (ix3 j o k)
          * View.readAt (Elt Ideal) arg1.view
              (Rect.unit (s := S1x64x32x32x32) ![0, 0, offT, 0, 0] ![1, 64, nT, 32, 32] inb1).toLoadRect
              (harg1.unread x0) (ix5 (0 : Fin 1) k t r c)
      = proj wj x b o T' R' C' := by
  obtain rfl : R' = r := Fin.ext hR'
  obtain rfl : C' = c := Fin.ext hC'
  unfold proj
  refine Finset.sum_congr rfl fun k _ => ?_
  exact congrArg₂ (· * ·) ((wload_apply arg2 harg2 x1 inb2 j o k).trans (hj o k))
    ((xload_apply arg1 harg1 x0 offT nT inb1 k t R' C' T' hT').trans (hx k T' R' C'))

/-- A load of the output buffer through a rectangle, after some stores, reads what those stores leave
    under the rectangle. -/
theorem readCov_emb (v : View sig .tc .vmem S1x64x32x32x32 .f32)
    (L : List (View.Piece (Elt Ideal) S1x64x32x32x32 .f32)) (r : Rect S1x64x32x32x32) (y : r.shape.Idx) :
    v.readCov L r.toLoadRect y = View.canon L (r.emb y) :=
  congrFun (View.readCov_eq_canon' v L r.toLoadRect) y

/-- Membership in a stored piece's unit-stride rectangle, one axis at a time. -/
theorem mem_piece_axis (off size : Fin 5 → Nat) (inb : ∀ a, off a + size a ≤ S1x64x32x32x32.size a)
    (w : (Rect.unit (s := S1x64x32x32x32) off size inb).shape.Idx → Elt Ideal .f32) (Y : S1x64x32x32x32.Idx)
    (hmem : Y ∈ (⟨Rect.unit (s := S1x64x32x32x32) off size inb, w⟩ : View.Piece (Elt Ideal) S1x64x32x32x32 .f32).1.set)
    (a : Fin 5) : off a ≤ (Y a).val ∧ (Y a).val < off a + size a :=
  (Rect.mem_set_unit (inb := inb)).mp hmem a

/-- A store into T-positions 16.. leaves the T-positions below 16 as they were. -/
theorem canon_skip_hi (offR offC : Nat) (size : Fin 5 → Nat)
    (inb : ∀ a, (![0, 0, 16, offR, offC] : Fin 5 → Nat) a + size a ≤ S1x64x32x32x32.size a)
    (w : (Rect.unit (s := S1x64x32x32x32) ![0, 0, 16, offR, offC] size inb).shape.Idx → Elt Ideal .f32)
    (L : List (View.Piece (Elt Ideal) S1x64x32x32x32 .f32)) (o : Fin 64) (T R C : Fin 32) (hT : T.val < 16) :
    View.canon (⟨Rect.unit (s := S1x64x32x32x32) ![0, 0, 16, offR, offC] size inb, w⟩ :: L) (ix5 (0 : Fin 1) o T R C)
      = View.canon L (ix5 (0 : Fin 1) o T R C) := by
  refine View.canon_cons_of_not_mem _ _ (fun hmem => ?_)
  have hm := mem_piece_axis _ _ _ _ _ hmem (2 : Fin 5)
  have : 16 ≤ T.val := hm.1
  omega

/-! ### T-positions below 16: stores 1 to 7

Each lemma says what a list of pieces leaves at (0, o, T, R, C) in terms of the list before it. -/

/-- Store 1: the self term, over the whole lower half-block. -/
theorem step1_lo (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (ws : SW.Idx → EReal) (h0 : ∀ o k : Fin 64, x1 (ix3 (0 : Fin 7) o k) = ws (ix2 o k))
    (o : Fin 64) (T R C : Fin 32) (hT : T.val < 16) :
    View.canon (kernelRun0_A.sl.H2_1 (F := Ideal) c arg1 harg1 arg2 harg2 x0 x1) (ix5 (0 : Fin 1) o T R C)
      = tSelf x ws b o T R C := by
  have hTl := T.isLt
  unfold kernelRun0_A.sl.H2_1
  have hY : ix5 (0 : Fin 1) o T R C
      = (Rect.unit (s := S1x64x32x32x32) ![0, 0, 0, 0, 0] S1x64x16x32x32.size inb_S1x64x32x32x32_S1x64x16x32x32_0_0_0_0_0).emb
          (ix5 (0 : Fin 1) o (⟨T.val, hT⟩ : Fin 16) R C) := funext fun a => Fin.ext (by
    match a with
    | ⟨0, _⟩ => rfl
    | ⟨1, _⟩ => show o.val = 0 + 1 * o.val; omega
    | ⟨2, _⟩ => show T.val = 0 + 1 * T.val; omega
    | ⟨3, _⟩ => show R.val = 0 + 1 * R.val; omega
    | ⟨4, _⟩ => show C.val = 0 + 1 * C.val; omega)
  refine (congrArg _ hY).trans ?_
  refine (View.canon_cons_emb _ _ _ _).trans ?_
  refine (store1_apply _ _ 0 o ⟨T.val, hT⟩ R C).trans ?_
  unfold tSelf
  exact sum_to_proj arg1 harg1 arg2 harg2 x0 x1 x b hx (0 : Fin 7) ws h0 _ 0 16 _ o _ _ _ T R C
    (by show T.val = 0 + T.val; omega) rfl rfl

/-- Store 2: the value before it plus the term of the row above (0 where there is none). -/
theorem step2_lo (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wrp : SW.Idx → EReal) (h3 : ∀ o k : Fin 64, x1 (ix3 (3 : Fin 7) o k) = wrp (ix2 o k))
    (o : Fin 64) (T R C : Fin 32) (hT : T.val < 16) :
    View.canon (kernelRun0_A.sl.H2_2 (F := Ideal) c arg1 harg1 arg2 harg2 arg3 x0 x1) (ix5 (0 : Fin 1) o T R C)
      = View.canon (kernelRun0_A.sl.H2_1 (F := Ideal) c arg1 harg1 arg2 harg2 x0 x1) (ix5 (0 : Fin 1) o T R C) + tRp x wrp b o T R C := by
  have hTl := T.isLt
  have hRl := R.isLt
  have hCl := C.isLt
  unfold kernelRun0_A.sl.H2_2
  unfold tRp
  by_cases hc : 0 < R.val
  · have hY : ix5 (0 : Fin 1) o T R C = (Rect.unit (s := S1x64x32x32x32) ![0, 0, 0, 1, 0] S1x64x16x31x32.size inb_S1x64x32x32x32_S1x64x16x31x32_0_0_0_1_0).emb (ix5 (0 : Fin 1) o (⟨T.val, by omega⟩ : Fin 16) (⟨R.val - 1, by omega⟩ : Fin 31) C) :=
      funext fun a => Fin.ext (by
        match a with
        | ⟨0, _⟩ => rfl
        | ⟨1, _⟩ => show o.val = 0 + 1 * o.val; omega
        | ⟨2, _⟩ => show T.val = 0 + 1 * T.val; omega
        | ⟨3, _⟩ => show R.val = 1 + 1 * (R.val - 1); omega
        | ⟨4, _⟩ => show C.val = 0 + 1 * C.val; omega)
    rw [if_pos hc]
    refine (congrArg _ hY).trans ?_
    refine (View.canon_cons_emb _ _ _ _).trans ?_
    refine (store2_apply _ _ _ 0 o (⟨T.val, by omega⟩ : Fin 16) (⟨R.val - 1, by omega⟩ : Fin 31) C).trans ?_
    refine congrArg₂ (· + ·) ?_ ?_
    · unfold kernelRun0_A.sl.v20
      exact (readCov_emb _ _ _ _).trans (congrArg _ hY.symm)
    · exact sum_to_proj arg1 harg1 arg2 harg2 x0 x1 x b hx (3 : Fin 7) wrp h3 _ 0 16 _ o _ _ _ T (prv R) C
        (by show T.val = 0 + T.val; omega) rfl rfl
  · rw [if_neg hc, add_zero]
    refine View.canon_cons_of_not_mem _ _ (fun hmem => ?_)
    have hm := mem_piece_axis _ _ _ _ _ hmem (3 : Fin 5)
    have : 1 ≤ R.val := hm.1
    omega

/-- Store 3: the value before it plus the term of the row below (0 where there is none). -/
theorem step3_lo (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wrm : SW.Idx → EReal) (h4 : ∀ o k : Fin 64, x1 (ix3 (4 : Fin 7) o k) = wrm (ix2 o k))
    (o : Fin 64) (T R C : Fin 32) (hT : T.val < 16) :
    View.canon (kernelRun0_A.sl.H2_3 (F := Ideal) c arg1 harg1 arg2 harg2 arg3 x0 x1) (ix5 (0 : Fin 1) o T R C)
      = View.canon (kernelRun0_A.sl.H2_2 (F := Ideal) c arg1 harg1 arg2 harg2 arg3 x0 x1) (ix5 (0 : Fin 1) o T R C) + tRm x wrm b o T R C := by
  have hTl := T.isLt
  have hRl := R.isLt
  have hCl := C.isLt
  unfold kernelRun0_A.sl.H2_3
  unfold tRm
  by_cases hc : R.val < 31
  · have hY : ix5 (0 : Fin 1) o T R C = (Rect.unit (s := S1x64x32x32x32) ![0, 0, 0, 0, 0] S1x64x16x31x32.size inb_S1x64x32x32x32_S1x64x16x31x32_0_0_0_0_0).emb (ix5 (0 : Fin 1) o (⟨T.val, by omega⟩ : Fin 16) (⟨R.val, by omega⟩ : Fin 31) C) :=
      funext fun a => Fin.ext (by
        match a with
        | ⟨0, _⟩ => rfl
        | ⟨1, _⟩ => show o.val = 0 + 1 * o.val; omega
        | ⟨2, _⟩ => show T.val = 0 + 1 * T.val; omega
        | ⟨3, _⟩ => show R.val = 0 + 1 * R.val; omega
        | ⟨4, _⟩ => show C.val = 0 + 1 * C.val; omega)
    rw [if_pos hc]
    refine (congrArg _ hY).trans ?_
    refine (View.canon_cons_emb _ _ _ _).trans ?_
    unfold kernelRun0_A.sl.r_2 kernelRun0_A.sl.r_3 kernelRun0_A.sl.cst_22
    refine (store3_apply _ _ _ 0 o (⟨T.val, by omega⟩ : Fin 16) (⟨R.val, by omega⟩ : Fin 31) C).trans ?_
    refine congrArg₂ (· + ·) ?_ ?_
    · unfold kernelRun0_A.sl.v33
      exact (readCov_emb _ _ _ _).trans (congrArg _ hY.symm)
    · exact sum_to_proj arg1 harg1 arg2 harg2 x0 x1 x b hx (4 : Fin 7) wrm h4 _ 0 16 _ o _ _ _ T (nxt R) C
        (by show T.val = 0 + T.val; omega) (by show (R.val + 1) % 32 = R.val + 1; omega) rfl
  · rw [if_neg hc, add_zero]
    refine View.canon_cons_of_not_mem _ _ (fun hmem => ?_)
    have hm := mem_piece_axis _ _ _ _ _ hmem (3 : Fin 5)
    have : R.val < 0 + 31 := hm.2
    omega

/-- Store 4: the value before it plus the term of the column before (0 where there is none). -/
theorem step4_lo (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wcp : SW.Idx → EReal) (h5 : ∀ o k : Fin 64, x1 (ix3 (5 : Fin 7) o k) = wcp (ix2 o k))
    (o : Fin 64) (T R C : Fin 32) (hT : T.val < 16) :
    View.canon (kernelRun0_A.sl.H2_4 (F := Ideal) c arg1 harg1 arg2 harg2 arg3 x0 x1) (ix5 (0 : Fin 1) o T R C)
      = View.canon (kernelRun0_A.sl.H2_3 (F := Ideal) c arg1 harg1 arg2 harg2 arg3 x0 x1) (ix5 (0 : Fin 1) o T R C) + tCp x wcp b o T R C := by
  have hTl := T.isLt
  have hRl := R.isLt
  have hCl := C.isLt
  unfold kernelRun0_A.sl.H2_4
  unfold tCp
  by_cases hc : 0 < C.val
  · have hY : ix5 (0 : Fin 1) o T R C = (Rect.unit (s := S1x64x32x32x32) ![0, 0, 0, 0, 1] S1x64x16x32x31.size inb_S1x64x32x32x32_S1x64x16x32x31_0_0_0_0_1).emb (ix5 (0 : Fin 1) o (⟨T.val, by omega⟩ : Fin 16) R (⟨C.val - 1, by omega⟩ : Fin 31)) :=
      funext fun a => Fin.ext (by
        match a with
        | ⟨0, _⟩ => rfl
        | ⟨1, _⟩ => show o.val = 0 + 1 * o.val; omega
        | ⟨2, _⟩ => show T.val = 0 + 1 * T.val; omega
        | ⟨3, _⟩ => show R.val = 0 + 1 * R.val; omega
        | ⟨4, _⟩ => show C.val = 1 + 1 * (C.val - 1); omega)
    rw [if_pos hc]
    refine (congrArg _ hY).trans ?_
    refine (View.canon_cons_emb _ _ _ _).trans ?_
    unfold kernelRun0_A.sl.r kernelRun0_A.sl.r_1
    refine (store4_apply _ _ _ 0 o (⟨T.val, by omega⟩ : Fin 16) R (⟨C.val - 1, by omega⟩ : Fin 31)).trans ?_
    refine congrArg₂ (· + ·) ?_ ?_
    · unfold kernelRun0_A.sl.v46
      exact (readCov_emb _ _ _ _).trans (congrArg _ hY.symm)
    · exact sum_to_proj arg1 harg1 arg2 harg2 x0 x1 x b hx (5 : Fin 7) wcp h5 _ 0 16 _ o _ _ _ T R (prv C)
        (by show T.val = 0 + T.val; omega) rfl rfl
  · rw [if_neg hc, add_zero]
    refine View.canon_cons_of_not_mem _ _ (fun hmem => ?_)
    have hm := mem_piece_axis _ _ _ _ _ hmem (4 : Fin 5)
    have : 1 ≤ C.val := hm.1
    omega

/-- Store 5: the value before it plus the term of the column after (0 where there is none). -/
theorem step5_lo (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wcm : SW.Idx → EReal) (h6 : ∀ o k : Fin 64, x1 (ix3 (6 : Fin 7) o k) = wcm (ix2 o k))
    (o : Fin 64) (T R C : Fin 32) (hT : T.val < 16) :
    View.canon (kernelRun0_A.sl.H2_5 (F := Ideal) c arg1 harg1 arg2 harg2 arg3 x0 x1) (ix5 (0 : Fin 1) o T R C)
      = View.canon (kernelRun0_A.sl.H2_4 (F := Ideal) c arg1 harg1 arg2 harg2 arg3 x0 x1) (ix5 (0 : Fin 1) o T R C) + tCm x wcm b o T R C := by
  have hTl := T.isLt
  have hRl := R.isLt
  have hCl := C.isLt
  unfold kernelRun0_A.sl.H2_5
  unfold tCm
  by_cases hc : C.val < 31
  · have hY : ix5 (0 : Fin 1) o T R C = (Rect.unit (s := S1x64x32x32x32) ![0, 0, 0, 0, 0] S1x64x16x32x31.size inb_S1x64x32x32x32_S1x64x16x32x31_0_0_0_0_0).emb (ix5 (0 : Fin 1) o (⟨T.val, by omega⟩ : Fin 16) R (⟨C.val, by omega⟩ : Fin 31)) :=
      funext fun a => Fin.ext (by
        match a with
        | ⟨0, _⟩ => rfl
        | ⟨1, _⟩ => show o.val = 0 + 1 * o.val; omega
        | ⟨2, _⟩ => show T.val = 0 + 1 * T.val; omega
        | ⟨3, _⟩ => show R.val = 0 + 1 * R.val; omega
        | ⟨4, _⟩ => show C.val = 0 + 1 * C.val; omega)
    rw [if_pos hc]
    refine (congrArg _ hY).trans ?_
    refine (View.canon_cons_emb _ _ _ _).trans ?_
    unfold kernelRun0_A.sl.r_4 kernelRun0_A.sl.r_5 kernelRun0_A.sl.r kernelRun0_A.sl.r_1
    refine (store5_apply _ _ _ 0 o (⟨T.val, by omega⟩ : Fin 16) R (⟨C.val, by omega⟩ : Fin 31)).trans ?_
    refine congrArg₂ (· + ·) ?_ ?_
    · unfold kernelRun0_A.sl.v59
      exact (readCov_emb _ _ _ _).trans (congrArg _ hY.symm)
    · exact sum_to_proj arg1 harg1 arg2 harg2 x0 x1 x b hx (6 : Fin 7) wcm h6 _ 0 16 _ o _ _ _ T R (nxt C)
        (by show T.val = 0 + T.val; omega) rfl (by show (C.val + 1) % 32 = C.val + 1; omega)
  · rw [if_neg hc, add_zero]
    refine View.canon_cons_of_not_mem _ _ (fun hmem => ?_)
    have hm := mem_piece_axis _ _ _ _ _ hmem (4 : Fin 5)
    have : C.val < 0 + 31 := hm.2
    omega

/-- Store 6: the value before it plus the term of the T-position before (0 where there is none). -/
theorem step6_lo (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wtp : SW.Idx → EReal) (h1 : ∀ o k : Fin 64, x1 (ix3 (1 : Fin 7) o k) = wtp (ix2 o k))
    (o : Fin 64) (T R C : Fin 32) (hT : T.val < 16) :
    View.canon (kernelRun0_A.sl.H2_6 (F := Ideal) c arg1 harg1 arg2 harg2 arg3 x0 x1) (ix5 (0 : Fin 1) o T R C)
      = View.canon (kernelRun0_A.sl.H2_5 (F := Ideal) c arg1 harg1 arg2 harg2 arg3 x0 x1) (ix5 (0 : Fin 1) o T R C) + tTp x wtp b o T R C := by
  have hTl := T.isLt
  have hRl := R.isLt
  have hCl := C.isLt
  unfold kernelRun0_A.sl.H2_6
  unfold tTp
  by_cases hc : 0 < T.val
  · have hY : ix5 (0 : Fin 1) o T R C = (Rect.unit (s := S1x64x32x32x32) ![0, 0, 1, 0, 0] S1x64x15x32x32.size inb_S1x64x32x32x32_S1x64x15x32x32_0_0_1_0_0).emb (ix5 (0 : Fin 1) o (⟨T.val - 1, by omega⟩ : Fin 15) R C) :=
      funext fun a => Fin.ext (by
        match a with
        | ⟨0, _⟩ => rfl
        | ⟨1, _⟩ => show o.val = 0 + 1 * o.val; omega
        | ⟨2, _⟩ => show T.val = 1 + 1 * (T.val - 1); omega
        | ⟨3, _⟩ => show R.val = 0 + 1 * R.val; omega
        | ⟨4, _⟩ => show C.val = 0 + 1 * C.val; omega)
    rw [if_pos hc]
    refine (congrArg _ hY).trans ?_
    refine (View.canon_cons_emb _ _ _ _).trans ?_
    unfold kernelRun0_A.sl.r
    refine (store6_apply _ _ _ 0 o (⟨T.val - 1, by omega⟩ : Fin 15) R C).trans ?_
    refine congrArg₂ (· + ·) ?_ ?_
    · unfold kernelRun0_A.sl.v68
      exact (readCov_emb _ _ _ _).trans (congrArg _ hY.symm)
    · exact sum_to_proj arg1 harg1 arg2 harg2 x0 x1 x b hx (1 : Fin 7) wtp h1 _ 0 15 _ o _ _ _ (prv T) R C
        (by show T.val - 1 = 0 + (T.val - 1); omega) rfl rfl
  · rw [if_neg hc, add_zero]
    refine View.canon_cons_of_not_mem _ _ (fun hmem => ?_)
    have hm := mem_piece_axis _ _ _ _ _ hmem (2 : Fin 5)
    have : 1 ≤ T.val := hm.1
    omega

/-- Store 7: the value before it plus the term of the T-position after (0 where there is none). -/
theorem step7_lo (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wtm : SW.Idx → EReal) (h2 : ∀ o k : Fin 64, x1 (ix3 (2 : Fin 7) o k) = wtm (ix2 o k))
    (o : Fin 64) (T R C : Fin 32) (hT : T.val < 16) :
    View.canon (kernelRun0_A.sl.H2_8 (F := Ideal) c arg1 harg1 arg2 harg2 arg3 x0 x1) (ix5 (0 : Fin 1) o T R C)
      = View.canon (kernelRun0_A.sl.H2_6 (F := Ideal) c arg1 harg1 arg2 harg2 arg3 x0 x1) (ix5 (0 : Fin 1) o T R C) + tTm x wtm b o T R C := by
  have hTl := T.isLt
  have hRl := R.isLt
  have hCl := C.isLt
  unfold kernelRun0_A.sl.H2_8
  refine (canon_skip_hi _ _ _ _ _ _ o T R C hT).trans ?_
  unfold tTm
  have hc : T.val < 31 := by omega
  have hY : ix5 (0 : Fin 1) o T R C = (Rect.unit (s := S1x64x32x32x32) ![0, 0, 0, 0, 0] S1x64x16x32x32.size inb_S1x64x32x32x32_S1x64x16x32x32_0_0_0_0_0).emb (ix5 (0 : Fin 1) o (⟨T.val, by omega⟩ : Fin 16) R C) :=
    funext fun a => Fin.ext (by
      match a with
      | ⟨0, _⟩ => rfl
      | ⟨1, _⟩ => show o.val = 0 + 1 * o.val; omega
      | ⟨2, _⟩ => show T.val = 0 + 1 * T.val; omega
      | ⟨3, _⟩ => show R.val = 0 + 1 * R.val; omega
      | ⟨4, _⟩ => show C.val = 0 + 1 * C.val; omega)
  rw [if_pos hc]
  refine (congrArg _ hY).trans ?_
  refine (View.canon_cons_emb _ _ _ _).trans ?_
  unfold kernelRun0_A.sl.r_6 kernelRun0_A.sl.r_7 kernelRun0_A.sl.r_8 kernelRun0_A.sl.r kernelRun0_A.sl.cst_22
  refine (store7_apply _ _ _ 0 o (⟨T.val, by omega⟩ : Fin 16) R C).trans ?_
  refine congrArg₂ (· + ·) ?_ ?_
  · unfold kernelRun0_A.sl.v82
    exact (readCov_emb _ _ _ _).trans (congrArg _ hY.symm)
  · exact sum_to_proj arg1 harg1 arg2 harg2 x0 x1 x b hx (2 : Fin 7) wtm h2 _ 1 16 _ o _ _ _ (nxt T) R C
      (by show (T.val + 1) % 32 = 1 + T.val; omega) rfl rfl

/-! ### T-positions from 16 on: stores 8 to 14 -/

/-- Store 8: the self term, over the whole upper half-block, whatever was there before. -/
theorem step8_hi (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (ws : SW.Idx → EReal) (h0 : ∀ o k : Fin 64, x1 (ix3 (0 : Fin 7) o k) = ws (ix2 o k))
    (o : Fin 64) (T R C : Fin 32) (hT : 16 ≤ T.val) :
    View.canon (kernelRun0_A.sl.H2_8 (F := Ideal) c arg1 harg1 arg2 harg2 arg3 x0 x1) (ix5 (0 : Fin 1) o T R C)
      = tSelf x ws b o T R C := by
  have hTl := T.isLt
  unfold kernelRun0_A.sl.H2_8
  have hY : ix5 (0 : Fin 1) o T R C
      = (Rect.unit (s := S1x64x32x32x32) ![0, 0, 16, 0, 0] S1x64x16x32x32.size inb_S1x64x32x32x32_S1x64x16x32x32_0_0_16_0_0).emb
          (ix5 (0 : Fin 1) o (⟨T.val - 16, by omega⟩ : Fin 16) R C) := funext fun a => Fin.ext (by
    match a with
    | ⟨0, _⟩ => rfl
    | ⟨1, _⟩ => show o.val = 0 + 1 * o.val; omega
    | ⟨2, _⟩ => show T.val = 16 + 1 * (T.val - 16); omega
    | ⟨3, _⟩ => show R.val = 0 + 1 * R.val; omega
    | ⟨4, _⟩ => show C.val = 0 + 1 * C.val; omega)
  refine (congrArg _ hY).trans ?_
  refine (View.canon_cons_emb _ _ _ _).trans ?_
  unfold kernelRun0_A.sl.r
  refine (store8_apply _ _ 0 o (⟨T.val - 16, by omega⟩ : Fin 16) R C).trans ?_
  unfold tSelf
  exact sum_to_proj arg1 harg1 arg2 harg2 x0 x1 x b hx (0 : Fin 7) ws h0 _ 16 16 _ o _ _ _ T R C
    (by show T.val = 16 + (T.val - 16); omega) rfl rfl

/-- Store 9: the value before it plus the term of the row above (0 where there is none). -/
theorem step9_hi (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wrp : SW.Idx → EReal) (h3 : ∀ o k : Fin 64, x1 (ix3 (3 : Fin 7) o k) = wrp (ix2 o k))
    (o : Fin 64) (T R C : Fin 32) (hT : 16 ≤ T.val) :
    View.canon (kernelRun0_A.sl.H2_9 (F := Ideal) c arg1 harg1 arg2 harg2 arg3 x0 x1) (ix5 (0 : Fin 1) o T R C)
      = View.canon (kernelRun0_A.sl.H2_8 (F := Ideal) c arg1 harg1 arg2 harg2 arg3 x0 x1) (ix5 (0 : Fin 1) o T R C) + tRp x wrp b o T R C := by
  have hTl := T.isLt
  have hRl := R.isLt
  have hCl := C.isLt
  unfold kernelRun0_A.sl.H2_9
  unfold tRp
  by_cases hc : 0 < R.val
  · have hY : ix5 (0 : Fin 1) o T R C = (Rect.unit (s := S1x64x32x32x32) ![0, 0, 16, 1, 0] S1x64x16x31x32.size inb_S1x64x32x32x32_S1x64x16x31x32_0_0_16_1_0).emb (ix5 (0 : Fin 1) o (⟨T.val - 16, by omega⟩ : Fin 16) (⟨R.val - 1, by omega⟩ : Fin 31) C) :=
      funext fun a => Fin.ext (by
        match a with
        | ⟨0, _⟩ => rfl
        | ⟨1, _⟩ => show o.val = 0 + 1 * o.val; omega
        | ⟨2, _⟩ => show T.val = 16 + 1 * (T.val - 16); omega
        | ⟨3, _⟩ => show R.val = 1 + 1 * (R.val - 1); omega
        | ⟨4, _⟩ => show C.val = 0 + 1 * C.val; omega)
    rw [if_pos hc]
    refine (congrArg _ hY).trans ?_
    refine (View.canon_cons_emb _ _ _ _).trans ?_
    unfold kernelRun0_A.sl.r
    refine (store9_apply _ _ _ 0 o (⟨T.val - 16, by omega⟩ : Fin 16) (⟨R.val - 1, by omega⟩ : Fin 31) C).trans ?_
    refine congrArg₂ (· + ·) ?_ ?_
    · unfold kernelRun0_A.sl.v111
      exact (readCov_emb _ _ _ _).trans (congrArg _ hY.symm)
    · exact sum_to_proj arg1 harg1 arg2 harg2 x0 x1 x b hx (3 : Fin 7) wrp h3 _ 16 16 _ o _ _ _ T (prv R) C
        (by show T.val = 16 + (T.val - 16); omega) rfl rfl
  · rw [if_neg hc, add_zero]
    refine View.canon_cons_of_not_mem _ _ (fun hmem => ?_)
    have hm := mem_piece_axis _ _ _ _ _ hmem (3 : Fin 5)
    have : 1 ≤ R.val := hm.1
    omega

/-- Store 10: the value before it plus the term of the row below (0 where there is none). -/
theorem step10_hi (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wrm : SW.Idx → EReal) (h4 : ∀ o k : Fin 64, x1 (ix3 (4 : Fin 7) o k) = wrm (ix2 o k))
    (o : Fin 64) (T R C : Fin 32) (hT : 16 ≤ T.val) :
    View.canon (kernelRun0_A.sl.H2_10 (F := Ideal) c arg1 harg1 arg2 harg2 arg3 x0 x1) (ix5 (0 : Fin 1) o T R C)
      = View.canon (kernelRun0_A.sl.H2_9 (F := Ideal) c arg1 harg1 arg2 harg2 arg3 x0 x1) (ix5 (0 : Fin 1) o T R C) + tRm x wrm b o T R C := by
  have hTl := T.isLt
  have hRl := R.isLt
  have hCl := C.isLt
  unfold kernelRun0_A.sl.H2_10
  unfold tRm
  by_cases hc : R.val < 31
  · have hY : ix5 (0 : Fin 1) o T R C = (Rect.unit (s := S1x64x32x32x32) ![0, 0, 16, 0, 0] S1x64x16x31x32.size inb_S1x64x32x32x32_S1x64x16x31x32_0_0_16_0_0).emb (ix5 (0 : Fin 1) o (⟨T.val - 16, by omega⟩ : Fin 16) (⟨R.val, by omega⟩ : Fin 31) C) :=
      funext fun a => Fin.ext (by
        match a with
        | ⟨0, _⟩ => rfl
        | ⟨1, _⟩ => show o.val = 0 + 1 * o.val; omega
        | ⟨2, _⟩ => show T.val = 16 + 1 * (T.val - 16); omega
        | ⟨3, _⟩ => show R.val = 0 + 1 * R.val; omega
        | ⟨4, _⟩ => show C.val = 0 + 1 * C.val; omega)
    rw [if_pos hc]
    refine (congrArg _ hY).trans ?_
    refine (View.canon_cons_emb _ _ _ _).trans ?_
    unfold kernelRun0_A.sl.r kernelRun0_A.sl.r_9
    refine (store10_apply _ _ _ 0 o (⟨T.val - 16, by omega⟩ : Fin 16) (⟨R.val, by omega⟩ : Fin 31) C).trans ?_
    refine congrArg₂ (· + ·) ?_ ?_
    · unfold kernelRun0_A.sl.v124
      exact (readCov_emb _ _ _ _).trans (congrArg _ hY.symm)
    · exact sum_to_proj arg1 harg1 arg2 harg2 x0 x1 x b hx (4 : Fin 7) wrm h4 _ 16 16 _ o _ _ _ T (nxt R) C
        (by show T.val = 16 + (T.val - 16); omega) (by show (R.val + 1) % 32 = R.val + 1; omega) rfl
  · rw [if_neg hc, add_zero]
    refine View.canon_cons_of_not_mem _ _ (fun hmem => ?_)
    have hm := mem_piece_axis _ _ _ _ _ hmem (3 : Fin 5)
    have : R.val < 0 + 31 := hm.2
    omega

/-- Store 11: the value before it plus the term of the column before (0 where there is none). -/
theorem step11_hi (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wcp : SW.Idx → EReal) (h5 : ∀ o k : Fin 64, x1 (ix3 (5 : Fin 7) o k) = wcp (ix2 o k))
    (o : Fin 64) (T R C : Fin 32) (hT : 16 ≤ T.val) :
    View.canon (kernelRun0_A.sl.H2_11 (F := Ideal) c arg1 harg1 arg2 harg2 arg3 x0 x1) (ix5 (0 : Fin 1) o T R C)
      = View.canon (kernelRun0_A.sl.H2_10 (F := Ideal) c arg1 harg1 arg2 harg2 arg3 x0 x1) (ix5 (0 : Fin 1) o T R C) + tCp x wcp b o T R C := by
  have hTl := T.isLt
  have hRl := R.isLt
  have hCl := C.isLt
  unfold kernelRun0_A.sl.H2_11
  unfold tCp
  by_cases hc : 0 < C.val
  · have hY : ix5 (0 : Fin 1) o T R C = (Rect.unit (s := S1x64x32x32x32) ![0, 0, 16, 0, 1] S1x64x16x32x31.size inb_S1x64x32x32x32_S1x64x16x32x31_0_0_16_0_1).emb (ix5 (0 : Fin 1) o (⟨T.val - 16, by omega⟩ : Fin 16) R (⟨C.val - 1, by omega⟩ : Fin 31)) :=
      funext fun a => Fin.ext (by
        match a with
        | ⟨0, _⟩ => rfl
        | ⟨1, _⟩ => show o.val = 0 + 1 * o.val; omega
        | ⟨2, _⟩ => show T.val = 16 + 1 * (T.val - 16); omega
        | ⟨3, _⟩ => show R.val = 0 + 1 * R.val; omega
        | ⟨4, _⟩ => show C.val = 1 + 1 * (C.val - 1); omega)
    rw [if_pos hc]
    refine (congrArg _ hY).trans ?_
    refine (View.canon_cons_emb _ _ _ _).trans ?_
    unfold kernelRun0_A.sl.r kernelRun0_A.sl.r_9
    refine (store11_apply _ _ _ 0 o (⟨T.val - 16, by omega⟩ : Fin 16) R (⟨C.val - 1, by omega⟩ : Fin 31)).trans ?_
    refine congrArg₂ (· + ·) ?_ ?_
    · unfold kernelRun0_A.sl.v137
      exact (readCov_emb _ _ _ _).trans (congrArg _ hY.symm)
    · exact sum_to_proj arg1 harg1 arg2 harg2 x0 x1 x b hx (5 : Fin 7) wcp h5 _ 16 16 _ o _ _ _ T R (prv C)
        (by show T.val = 16 + (T.val - 16); omega) rfl rfl
  · rw [if_neg hc, add_zero]
    refine View.canon_cons_of_not_mem _ _ (fun hmem => ?_)
    have hm := mem_piece_axis _ _ _ _ _ hmem (4 : Fin 5)
    have : 1 ≤ C.val := hm.1
    omega

/-- Store 12: the value before it plus the term of the column after (0 where there is none). -/
theorem step12_hi (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wcm : SW.Idx → EReal) (h6 : ∀ o k : Fin 64, x1 (ix3 (6 : Fin 7) o k) = wcm (ix2 o k))
    (o : Fin 64) (T R C : Fin 32) (hT : 16 ≤ T.val) :
    View.canon (kernelRun0_A.sl.H2_12 (F := Ideal) c arg1 harg1 arg2 harg2 arg3 x0 x1) (ix5 (0 : Fin 1) o T R C)
      = View.canon (kernelRun0_A.sl.H2_11 (F := Ideal) c arg1 harg1 arg2 harg2 arg3 x0 x1) (ix5 (0 : Fin 1) o T R C) + tCm x wcm b o T R C := by
  have hTl := T.isLt
  have hRl := R.isLt
  have hCl := C.isLt
  unfold kernelRun0_A.sl.H2_12
  unfold tCm
  by_cases hc : C.val < 31
  · have hY : ix5 (0 : Fin 1) o T R C = (Rect.unit (s := S1x64x32x32x32) ![0, 0, 16, 0, 0] S1x64x16x32x31.size inb_S1x64x32x32x32_S1x64x16x32x31_0_0_16_0_0).emb (ix5 (0 : Fin 1) o (⟨T.val - 16, by omega⟩ : Fin 16) R (⟨C.val, by omega⟩ : Fin 31)) :=
      funext fun a => Fin.ext (by
        match a with
        | ⟨0, _⟩ => rfl
        | ⟨1, _⟩ => show o.val = 0 + 1 * o.val; omega
        | ⟨2, _⟩ => show T.val = 16 + 1 * (T.val - 16); omega
        | ⟨3, _⟩ => show R.val = 0 + 1 * R.val; omega
        | ⟨4, _⟩ => show C.val = 0 + 1 * C.val; omega)
    rw [if_pos hc]
    refine (congrArg _ hY).trans ?_
    refine (View.canon_cons_emb _ _ _ _).trans ?_
    unfold kernelRun0_A.sl.r_10 kernelRun0_A.sl.r kernelRun0_A.sl.r_9
    refine (store12_apply _ _ _ 0 o (⟨T.val - 16, by omega⟩ : Fin 16) R (⟨C.val, by omega⟩ : Fin 31)).trans ?_
    refine congrArg₂ (· + ·) ?_ ?_
    · unfold kernelRun0_A.sl.v150
      exact (readCov_emb _ _ _ _).trans (congrArg _ hY.symm)
    · exact sum_to_proj arg1 harg1 arg2 harg2 x0 x1 x b hx (6 : Fin 7) wcm h6 _ 16 16 _ o _ _ _ T R (nxt C)
        (by show T.val = 16 + (T.val - 16); omega) rfl (by show (C.val + 1) % 32 = C.val + 1; omega)
  · rw [if_neg hc, add_zero]
    refine View.canon_cons_of_not_mem _ _ (fun hmem => ?_)
    have hm := mem_piece_axis _ _ _ _ _ hmem (4 : Fin 5)
    have : C.val < 0 + 31 := hm.2
    omega

/-- Store 13: the value before it plus the term of the T-position before (0 where there is none). -/
theorem step13_hi (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wtp : SW.Idx → EReal) (h1 : ∀ o k : Fin 64, x1 (ix3 (1 : Fin 7) o k) = wtp (ix2 o k))
    (o : Fin 64) (T R C : Fin 32) (hT : 16 ≤ T.val) :
    View.canon (kernelRun0_A.sl.H2_13 (F := Ideal) c arg1 harg1 arg2 harg2 arg3 x0 x1) (ix5 (0 : Fin 1) o T R C)
      = View.canon (kernelRun0_A.sl.H2_12 (F := Ideal) c arg1 harg1 arg2 harg2 arg3 x0 x1) (ix5 (0 : Fin 1) o T R C) + tTp x wtp b o T R C := by
  have hTl := T.isLt
  have hRl := R.isLt
  have hCl := C.isLt
  unfold kernelRun0_A.sl.H2_13
  unfold tTp
  have hc : 0 < T.val := by omega
  have hY : ix5 (0 : Fin 1) o T R C = (Rect.unit (s := S1x64x32x32x32) ![0, 0, 16, 0, 0] S1x64x16x32x32.size inb_S1x64x32x32x32_S1x64x16x32x32_0_0_16_0_0).emb (ix5 (0 : Fin 1) o (⟨T.val - 16, by omega⟩ : Fin 16) R C) :=
    funext fun a => Fin.ext (by
      match a with
      | ⟨0, _⟩ => rfl
      | ⟨1, _⟩ => show o.val = 0 + 1 * o.val; omega
      | ⟨2, _⟩ => show T.val = 16 + 1 * (T.val - 16); omega
      | ⟨3, _⟩ => show R.val = 0 + 1 * R.val; omega
      | ⟨4, _⟩ => show C.val = 0 + 1 * C.val; omega)
  rw [if_pos hc]
  refine (congrArg _ hY).trans ?_
  refine (View.canon_cons_emb _ _ _ _).trans ?_
  unfold kernelRun0_A.sl.r
  refine (store13_apply _ _ _ 0 o (⟨T.val - 16, by omega⟩ : Fin 16) R C).trans ?_
  refine congrArg₂ (· + ·) ?_ ?_
  · unfold kernelRun0_A.sl.v159
    exact (readCov_emb _ _ _ _).trans (congrArg _ hY.symm)
  · exact sum_to_proj arg1 harg1 arg2 harg2 x0 x1 x b hx (1 : Fin 7) wtp h1 _ 15 16 _ o _ _ _ (prv T) R C
      (by show T.val - 1 = 15 + (T.val - 16); omega) rfl rfl

/-- Store 14: the value before it plus the term of the T-position after (0 where there is none). -/
theorem step14_hi (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : SX.Idx → EReal) (b : Fin 8)
    (hx : ∀ (k : Fin 64) (T R C : Fin 32), x0 (ix5 (0 : Fin 1) k T R C) = x (ix5 b k T R C))
    (wtm : SW.Idx → EReal) (h2 : ∀ o k : Fin 64, x1 (ix3 (2 : Fin 7) o k) = wtm (ix2 o k))
    (o : Fin 64) (T R C : Fin 32) (hT : 16 ≤ T.val) :
    View.canon (⟨Rect.unit (s := S1x64x32x32x32) ![0, 0, 16, 0, 0] S1x64x15x32x32.size inb_S1x64x32x32x32_S1x64x15x32x32_0_0_16_0_0,
        k0_pay1 (kernelRun0_A.sl.r (F := Ideal) c arg2 harg2 x1) (kernelRun0_A.sl.r_11 (F := Ideal) c arg1 harg1 x0)
          (kernelRun0_A.sl.r_12 (F := Ideal) c arg1 harg1 arg2 harg2 arg3 x0 x1)⟩ ::
      kernelRun0_A.sl.H2_13 (F := Ideal) c arg1 harg1 arg2 harg2 arg3 x0 x1 : List (View.Piece (Elt Ideal) S1x64x32x32x32 .f32)) (ix5 (0 : Fin 1) o T R C)
      = View.canon (kernelRun0_A.sl.H2_13 (F := Ideal) c arg1 harg1 arg2 harg2 arg3 x0 x1) (ix5 (0 : Fin 1) o T R C) + tTm x wtm b o T R C := by
  have hTl := T.isLt
  have hRl := R.isLt
  have hCl := C.isLt
  unfold tTm
  by_cases hc : T.val < 31
  · have hY : ix5 (0 : Fin 1) o T R C = (Rect.unit (s := S1x64x32x32x32) ![0, 0, 16, 0, 0] S1x64x15x32x32.size inb_S1x64x32x32x32_S1x64x15x32x32_0_0_16_0_0).emb (ix5 (0 : Fin 1) o (⟨T.val - 16, by omega⟩ : Fin 15) R C) :=
      funext fun a => Fin.ext (by
        match a with
        | ⟨0, _⟩ => rfl
        | ⟨1, _⟩ => show o.val = 0 + 1 * o.val; omega
        | ⟨2, _⟩ => show T.val = 16 + 1 * (T.val - 16); omega
        | ⟨3, _⟩ => show R.val = 0 + 1 * R.val; omega
        | ⟨4, _⟩ => show C.val = 0 + 1 * C.val; omega)
    rw [if_pos hc]
    refine (congrArg _ hY).trans ?_
    refine (View.canon_cons_emb _ _ _ _).trans ?_
    unfold kernelRun0_A.sl.r kernelRun0_A.sl.r_11 kernelRun0_A.sl.r_12
    refine (store14_apply _ _ _ 0 o (⟨T.val - 16, by omega⟩ : Fin 15) R C).trans ?_
    refine congrArg₂ (· + ·) ?_ ?_
    · unfold kernelRun0_A.sl.v173
      exact (readCov_emb _ _ _ _).trans (congrArg _ hY.symm)
    · exact sum_to_proj arg1 harg1 arg2 harg2 x0 x1 x b hx (2 : Fin 7) wtm h2 _ 17 15 _ o _ _ _ (nxt T) R C
        (by show (T.val + 1) % 32 = 17 + (T.val - 16); omega) rfl rfl
  · rw [if_neg hc, add_zero]
    refine View.canon_cons_of_not_mem _ _ (fun hmem => ?_)
    have hm := mem_piece_axis _ _ _ _ _ hmem (2 : Fin 5)
    have : T.val < 16 + 15 := hm.2
    omega

/-! ### The block -/

/-- Below T-position 16 the last six stores change nothing. -/
theorem lo_skip (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (o : Fin 64) (T R C : Fin 32) (hT : T.val < 16) :
    View.canon (⟨Rect.unit (s := S1x64x32x32x32) ![0, 0, 16, 0, 0] S1x64x15x32x32.size inb_S1x64x32x32x32_S1x64x15x32x32_0_0_16_0_0,
        k0_pay1 (kernelRun0_A.sl.r (F := Ideal) c arg2 harg2 x1) (kernelRun0_A.sl.r_11 (F := Ideal) c arg1 harg1 x0)
          (kernelRun0_A.sl.r_12 (F := Ideal) c arg1 harg1 arg2 harg2 arg3 x0 x1)⟩ ::
      kernelRun0_A.sl.H2_13 (F := Ideal) c arg1 harg1 arg2 harg2 arg3 x0 x1 : List (View.Piece (Elt Ideal) S1x64x32x32x32 .f32)) (ix5 (0 : Fin 1) o T R C)
      = View.canon (kernelRun0_A.sl.H2_8 (F := Ideal) c arg1 harg1 arg2 harg2 arg3 x0 x1) (ix5 (0 : Fin 1) o T R C) := by
  refine (canon_skip_hi _ _ _ _ _ _ o T R C hT).trans ?_
  unfold kernelRun0_A.sl.H2_13
  refine (canon_skip_hi _ _ _ _ _ _ o T R C hT).trans ?_
  unfold kernelRun0_A.sl.H2_12
  refine (canon_skip_hi _ _ _ _ _ _ o T R C hT).trans ?_
  unfold kernelRun0_A.sl.H2_11
  refine (canon_skip_hi _ _ _ _ _ _ o T R C hT).trans ?_
  unfold kernelRun0_A.sl.H2_10
  refine (canon_skip_hi _ _ _ _ _ _ o T R C hT).trans ?_
  unfold kernelRun0_A.sl.H2_9
  exact canon_skip_hi _ _ _ _ _ _ o T R C hT

/-- What the body leaves in the output block, entry by entry: the specification's value at the block's batch index. -/
theorem out_block_apply (c : Dev nD) (i : grid0.Coords)
    (arg1 : Memref sig .tc .vmem S1x64x32x32x32 .f32) (harg1 : arg1.IsWhole)
    (arg2 : Memref sig .tc .vmem S7x64x64 .f32) (harg2 : arg2.IsWhole)
    (arg3 : Memref sig .tc .vmem S1x64x32x32x32 .f32) (harg3 : arg3.IsWhole)
    (x0 : Vec Ideal S1x64x32x32x32 .f32) (x1 : Vec Ideal S7x64x64 .f32)
    (x : Cert.DirConv.SX.Idx → EReal) (ws wtp wtm wrp wrm wcp wcm : Cert.DirConv.SW.Idx → EReal) (b : Fin 8)
    (hx : ∀ (k : Fin 64) (T R C : Fin 32), x0 (ix5 (0 : Fin 1) k T R C) = x (ix5 b k T R C))
    (h0 : ∀ o k : Fin 64, x1 (ix3 (0 : Fin 7) o k) = ws (ix2 o k))
    (h1 : ∀ o k : Fin 64, x1 (ix3 (1 : Fin 7) o k) = wtp (ix2 o k))
    (h2 : ∀ o k : Fin 64, x1 (ix3 (2 : Fin 7) o k) = wtm (ix2 o k))
    (h3 : ∀ o k : Fin 64, x1 (ix3 (3 : Fin 7) o k) = wrp (ix2 o k))
    (h4 : ∀ o k : Fin 64, x1 (ix3 (4 : Fin 7) o k) = wrm (ix2 o k))
    (h5 : ∀ o k : Fin 64, x1 (ix3 (5 : Fin 7) o k) = wcp (ix2 o k))
    (h6 : ∀ o k : Fin 64, x1 (ix3 (6 : Fin 7) o k) = wcm (ix2 o k))
    (o : Fin 64) (T R C : Fin 32) :
    out0_A_2 (F := Ideal) c i arg1 harg1 arg2 harg2 arg3 harg3 x0 x1 (ix5 (0 : Fin 1) o T R C)
      = Cert.DirConv.Gc x ws wtp wtm wrp wrm wcp wcm b o T R C := by
  unfold out0_A_2
  rw [View.read_writes_junk_eq_canon]
  have hL : (kernelRun0_A (F := Ideal) c i arg1 harg1 arg2 harg2 arg3 harg3 x0 x1).1 = (⟨Rect.unit (s := S1x64x32x32x32) ![0, 0, 16, 0, 0] S1x64x15x32x32.size inb_S1x64x32x32x32_S1x64x15x32x32_0_0_16_0_0,
        k0_pay1 (kernelRun0_A.sl.r (F := Ideal) c arg2 harg2 x1) (kernelRun0_A.sl.r_11 (F := Ideal) c arg1 harg1 x0)
          (kernelRun0_A.sl.r_12 (F := Ideal) c arg1 harg1 arg2 harg2 arg3 x0 x1)⟩ ::
      kernelRun0_A.sl.H2_13 (F := Ideal) c arg1 harg1 arg2 harg2 arg3 x0 x1 : List (View.Piece (Elt Ideal) S1x64x32x32x32 .f32)) := by
    unfold kernelRun0_A
    rfl
  rw [hL]
  refine Eq.trans ?_ (Gc_reorder x ws wtp wtm wrp wrm wcp wcm b o T R C)
  by_cases hT : T.val < 16
  · rw [lo_skip c i arg1 harg1 arg2 harg2 arg3 harg3 x0 x1 o T R C hT,
      step7_lo c i arg1 harg1 arg2 harg2 arg3 harg3 x0 x1 x b hx wtm h2 o T R C hT,
      step6_lo c i arg1 harg1 arg2 harg2 arg3 harg3 x0 x1 x b hx wtp h1 o T R C hT,
      step5_lo c i arg1 harg1 arg2 harg2 arg3 harg3 x0 x1 x b hx wcm h6 o T R C hT,
      step4_lo c i arg1 harg1 arg2 harg2 arg3 harg3 x0 x1 x b hx wcp h5 o T R C hT,
      step3_lo c i arg1 harg1 arg2 harg2 arg3 harg3 x0 x1 x b hx wrm h4 o T R C hT,
      step2_lo c i arg1 harg1 arg2 harg2 arg3 harg3 x0 x1 x b hx wrp h3 o T R C hT,
      step1_lo c i arg1 harg1 arg2 harg2 arg3 harg3 x0 x1 x b hx ws h0 o T R C hT]
  · have hT' : 16 ≤ T.val := by omega
    rw [step14_hi c i arg1 harg1 arg2 harg2 arg3 harg3 x0 x1 x b hx wtm h2 o T R C hT',
      step13_hi c i arg1 harg1 arg2 harg2 arg3 harg3 x0 x1 x b hx wtp h1 o T R C hT',
      step12_hi c i arg1 harg1 arg2 harg2 arg3 harg3 x0 x1 x b hx wcm h6 o T R C hT',
      step11_hi c i arg1 harg1 arg2 harg2 arg3 harg3 x0 x1 x b hx wcp h5 o T R C hT',
      step10_hi c i arg1 harg1 arg2 harg2 arg3 harg3 x0 x1 x b hx wrm h4 o T R C hT',
      step9_hi c i arg1 harg1 arg2 harg2 arg3 harg3 x0 x1 x b hx wrp h3 o T R C hT',
      step8_hi c i arg1 harg1 arg2 harg2 arg3 harg3 x0 x1 x b hx ws h0 o T R C hT']

end Cert.KernelIdeal.Hand

end
-- ==== Proof.KIWeights.lean ====
/-
  The weights' stack as the region finds it, for any float instance.

  Before the region, each of the seven 64 × 64 weights is laid as a 1 × 64 × 64 slab (a new leading axis of extent 1,
  the two matrix axes kept), and the seven slabs are joined along the leading axis, in the arguments' order, into one
  7 × 64 × 64 array. Read at (j, o, k) the array is therefore weight j at (o, k): the joined array at leading
  coordinate j is slab j at leading coordinate 0, since every slab has extent 1 there, and a slab at (0, o, k) is
  its matrix at (o, k). These are layout operations only; no arithmetic of the entries is involved.
-/
import proofs.«155031_j28982439313416_1_alg».proof.Proof.KIKit
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

open Idealize.ShloMosaic.ValueIdx

/-! ## The weights' stack when the region is entered -/

/-- The stack's array is the seven weights, each laid as a 1 × 64 × 64 slab, joined along the leading axis. -/
theorem V_main_v7 (c : Dev nD) : (V m c main_v7 : S7x64x64.Idx → Elt F .f32) =
    concatenate S7x64x64 0 [⟨S1x64x64, broadcastInDim S1x64x64 ![1, 2] bcast_S64x64_S1x64x64_1_2 (m ((c : Thread nD τ).loc main_arg1))⟩,
      ⟨S1x64x64, broadcastInDim S1x64x64 ![1, 2] bcast_S64x64_S1x64x64_1_2 (m ((c : Thread nD τ).loc main_arg2))⟩,
      ⟨S1x64x64, broadcastInDim S1x64x64 ![1, 2] bcast_S64x64_S1x64x64_1_2 (m ((c : Thread nD τ).loc main_arg3))⟩,
      ⟨S1x64x64, broadcastInDim S1x64x64 ![1, 2] bcast_S64x64_S1x64x64_1_2 (m ((c : Thread nD τ).loc main_arg4))⟩,
      ⟨S1x64x64, broadcastInDim S1x64x64 ![1, 2] bcast_S64x64_S1x64x64_1_2 (m ((c : Thread nD τ).loc main_arg5))⟩,
      ⟨S1x64x64, broadcastInDim S1x64x64 ![1, 2] bcast_S64x64_S1x64x64_1_2 (m ((c : Thread nD τ).loc main_arg6))⟩,
      ⟨S1x64x64, broadcastInDim S1x64x64 ![1, 2] bcast_S64x64_S1x64x64_1_2 (m ((c : Thread nD τ).loc main_arg7))⟩] concatenates_S1x64x64_S1x64x64_S1x64x64_S1x64x64_S1x64x64_S1x64x64_S1x64x64_S7x64x64_d0 := by
  dsimp only [V, hostOps0]
  after_results
  rfl

/-- A 64 × 64 matrix laid as a 1 × 64 × 64 slab, read at (0, o, k), is the matrix at (o, k). -/
theorem slab_apply {α : Type} (w : S64x64.Idx → α) (o k : Fin 64) :
    broadcastInDim S1x64x64 ![1, 2] bcast_S64x64_S1x64x64_1_2 w (ix3 (0 : Fin 1) o k) = w (ix2 o k) :=
  broadcastInDim_apply _ _ w _ _ (fun a => by match a with | ⟨0, _⟩ => rfl | ⟨1, _⟩ => rfl)

/-- Seven 1 × 64 × 64 slabs joined along the leading axis, read at (j, o, k): slab j at (0, o, k). -/
theorem stack_apply {α : Type} (y0 y1 y2 y3 y4 y5 y6 : S1x64x64.Idx → α) (j : Fin 7) (o k : Fin 64) :
    concatenate S7x64x64 0 [⟨S1x64x64, y0⟩, ⟨S1x64x64, y1⟩, ⟨S1x64x64, y2⟩, ⟨S1x64x64, y3⟩, ⟨S1x64x64, y4⟩, ⟨S1x64x64, y5⟩, ⟨S1x64x64, y6⟩] concatenates_S1x64x64_S1x64x64_S1x64x64_S1x64x64_S1x64x64_S1x64x64_S1x64x64_S7x64x64_d0 (ix3 j o k)
      = (match j with | ⟨0, _⟩ => y0 | ⟨1, _⟩ => y1 | ⟨2, _⟩ => y2 | ⟨3, _⟩ => y3 | ⟨4, _⟩ => y4 | ⟨5, _⟩ => y5 | ⟨6, _⟩ => y6 : S1x64x64.Idx → α)
          (ix3 (0 : Fin 1) o k) := by
  match j with
  | ⟨0, _⟩ =>
    exact concatenate_apply_piece (t := S7x64x64) 0 [⟨S1x64x64, y0⟩, ⟨S1x64x64, y1⟩, ⟨S1x64x64, y2⟩, ⟨S1x64x64, y3⟩, ⟨S1x64x64, y4⟩, ⟨S1x64x64, y5⟩, ⟨S1x64x64, y6⟩] concatenates_S1x64x64_S1x64x64_S1x64x64_S1x64x64_S1x64x64_S1x64x64_S1x64x64_S7x64x64_d0 _ 0 (by simp) S1x64x64 y0 rfl rfl 0 rfl (ix3 (0 : Fin 1) o k)
      (fun b hb => by match b with | ⟨0, _⟩ => exact absurd rfl hb | ⟨1, _⟩ => rfl | ⟨2, _⟩ => rfl) rfl
  | ⟨1, _⟩ =>
    exact concatenate_apply_piece (t := S7x64x64) 0 [⟨S1x64x64, y0⟩, ⟨S1x64x64, y1⟩, ⟨S1x64x64, y2⟩, ⟨S1x64x64, y3⟩, ⟨S1x64x64, y4⟩, ⟨S1x64x64, y5⟩, ⟨S1x64x64, y6⟩] concatenates_S1x64x64_S1x64x64_S1x64x64_S1x64x64_S1x64x64_S1x64x64_S1x64x64_S7x64x64_d0 _ 1 (by simp) S1x64x64 y1 rfl rfl 1 rfl (ix3 (0 : Fin 1) o k)
      (fun b hb => by match b with | ⟨0, _⟩ => exact absurd rfl hb | ⟨1, _⟩ => rfl | ⟨2, _⟩ => rfl) rfl
  | ⟨2, _⟩ =>
    exact concatenate_apply_piece (t := S7x64x64) 0 [⟨S1x64x64, y0⟩, ⟨S1x64x64, y1⟩, ⟨S1x64x64, y2⟩, ⟨S1x64x64, y3⟩, ⟨S1x64x64, y4⟩, ⟨S1x64x64, y5⟩, ⟨S1x64x64, y6⟩] concatenates_S1x64x64_S1x64x64_S1x64x64_S1x64x64_S1x64x64_S1x64x64_S1x64x64_S7x64x64_d0 _ 2 (by simp) S1x64x64 y2 rfl rfl 2 rfl (ix3 (0 : Fin 1) o k)
      (fun b hb => by match b with | ⟨0, _⟩ => exact absurd rfl hb | ⟨1, _⟩ => rfl | ⟨2, _⟩ => rfl) rfl
  | ⟨3, _⟩ =>
    exact concatenate_apply_piece (t := S7x64x64) 0 [⟨S1x64x64, y0⟩, ⟨S1x64x64, y1⟩, ⟨S1x64x64, y2⟩, ⟨S1x64x64, y3⟩, ⟨S1x64x64, y4⟩, ⟨S1x64x64, y5⟩, ⟨S1x64x64, y6⟩] concatenates_S1x64x64_S1x64x64_S1x64x64_S1x64x64_S1x64x64_S1x64x64_S1x64x64_S7x64x64_d0 _ 3 (by simp) S1x64x64 y3 rfl rfl 3 rfl (ix3 (0 : Fin 1) o k)
      (fun b hb => by match b with | ⟨0, _⟩ => exact absurd rfl hb | ⟨1, _⟩ => rfl | ⟨2, _⟩ => rfl) rfl
  | ⟨4, _⟩ =>
    exact concatenate_apply_piece (t := S7x64x64) 0 [⟨S1x64x64, y0⟩, ⟨S1x64x64, y1⟩, ⟨S1x64x64, y2⟩, ⟨S1x64x64, y3⟩, ⟨S1x64x64, y4⟩, ⟨S1x64x64, y5⟩, ⟨S1x64x64, y6⟩] concatenates_S1x64x64_S1x64x64_S1x64x64_S1x64x64_S1x64x64_S1x64x64_S1x64x64_S7x64x64_d0 _ 4 (by simp) S1x64x64 y4 rfl rfl 4 rfl (ix3 (0 : Fin 1) o k)
      (fun b hb => by match b with | ⟨0, _⟩ => exact absurd rfl hb | ⟨1, _⟩ => rfl | ⟨2, _⟩ => rfl) rfl
  | ⟨5, _⟩ =>
    exact concatenate_apply_piece (t := S7x64x64) 0 [⟨S1x64x64, y0⟩, ⟨S1x64x64, y1⟩, ⟨S1x64x64, y2⟩, ⟨S1x64x64, y3⟩, ⟨S1x64x64, y4⟩, ⟨S1x64x64, y5⟩, ⟨S1x64x64, y6⟩] concatenates_S1x64x64_S1x64x64_S1x64x64_S1x64x64_S1x64x64_S1x64x64_S1x64x64_S7x64x64_d0 _ 5 (by simp) S1x64x64 y5 rfl rfl 5 rfl (ix3 (0 : Fin 1) o k)
      (fun b hb => by match b with | ⟨0, _⟩ => exact absurd rfl hb | ⟨1, _⟩ => rfl | ⟨2, _⟩ => rfl) rfl
  | ⟨6, _⟩ =>
    exact concatenate_apply_piece (t := S7x64x64) 0 [⟨S1x64x64, y0⟩, ⟨S1x64x64, y1⟩, ⟨S1x64x64, y2⟩, ⟨S1x64x64, y3⟩, ⟨S1x64x64, y4⟩, ⟨S1x64x64, y5⟩, ⟨S1x64x64, y6⟩] concatenates_S1x64x64_S1x64x64_S1x64x64_S1x64x64_S1x64x64_S1x64x64_S1x64x64_S7x64x64_d0 _ 6 (by simp) S1x64x64 y6 rfl rfl 6 rfl (ix3 (0 : Fin 1) o k)
      (fun b hb => by match b with | ⟨0, _⟩ => exact absurd rfl hb | ⟨1, _⟩ => rfl | ⟨2, _⟩ => rfl) rfl

/-! ## The stack read at an index -/

/-- The stack at (0, o, k) is argument 1 at (o, k). -/
theorem V_main_v7_apply_0 (c : Dev nD) (o k : Fin 64) :
    V m c main_v7 (ix3 (⟨0, by decide⟩ : Fin 7) o k) = m ((c : Thread nD τ).loc main_arg1) (ix2 o k) :=
  (congrFun (V_main_v7 m c) _).trans ((stack_apply _ _ _ _ _ _ _ ⟨0, by decide⟩ o k).trans (slab_apply _ o k))
/-- The stack at (1, o, k) is argument 2 at (o, k). -/
theorem V_main_v7_apply_1 (c : Dev nD) (o k : Fin 64) :
    V m c main_v7 (ix3 (⟨1, by decide⟩ : Fin 7) o k) = m ((c : Thread nD τ).loc main_arg2) (ix2 o k) :=
  (congrFun (V_main_v7 m c) _).trans ((stack_apply _ _ _ _ _ _ _ ⟨1, by decide⟩ o k).trans (slab_apply _ o k))
/-- The stack at (2, o, k) is argument 3 at (o, k). -/
theorem V_main_v7_apply_2 (c : Dev nD) (o k : Fin 64) :
    V m c main_v7 (ix3 (⟨2, by decide⟩ : Fin 7) o k) = m ((c : Thread nD τ).loc main_arg3) (ix2 o k) :=
  (congrFun (V_main_v7 m c) _).trans ((stack_apply _ _ _ _ _ _ _ ⟨2, by decide⟩ o k).trans (slab_apply _ o k))
/-- The stack at (3, o, k) is argument 4 at (o, k). -/
theorem V_main_v7_apply_3 (c : Dev nD) (o k : Fin 64) :
    V m c main_v7 (ix3 (⟨3, by decide⟩ : Fin 7) o k) = m ((c : Thread nD τ).loc main_arg4) (ix2 o k) :=
  (congrFun (V_main_v7 m c) _).trans ((stack_apply _ _ _ _ _ _ _ ⟨3, by decide⟩ o k).trans (slab_apply _ o k))
/-- The stack at (4, o, k) is argument 5 at (o, k). -/
theorem V_main_v7_apply_4 (c : Dev nD) (o k : Fin 64) :
    V m c main_v7 (ix3 (⟨4, by decide⟩ : Fin 7) o k) = m ((c : Thread nD τ).loc main_arg5) (ix2 o k) :=
  (congrFun (V_main_v7 m c) _).trans ((stack_apply _ _ _ _ _ _ _ ⟨4, by decide⟩ o k).trans (slab_apply _ o k))
/-- The stack at (5, o, k) is argument 6 at (o, k). -/
theorem V_main_v7_apply_5 (c : Dev nD) (o k : Fin 64) :
    V m c main_v7 (ix3 (⟨5, by decide⟩ : Fin 7) o k) = m ((c : Thread nD τ).loc main_arg6) (ix2 o k) :=
  (congrFun (V_main_v7 m c) _).trans ((stack_apply _ _ _ _ _ _ _ ⟨5, by decide⟩ o k).trans (slab_apply _ o k))
/-- The stack at (6, o, k) is argument 7 at (o, k). -/
theorem V_main_v7_apply_6 (c : Dev nD) (o k : Fin 64) :
    V m c main_v7 (ix3 (⟨6, by decide⟩ : Fin 7) o k) = m ((c : Thread nD τ).loc main_arg7) (ix2 o k) :=
  (congrFun (V_main_v7 m c) _).trans ((stack_apply _ _ _ _ _ _ _ ⟨6, by decide⟩ o k).trans (slab_apply _ o k))

end Cert.KernelIdeal.Hand

end
-- ==== Proof.KIFinal.lean ====
/-
  The kernel's result array is the specification, and its arguments are untouched.

  The grid has eight points, one per batch element. At point t the x window's block is the slab of x at batch element
  t, the weights' window's block is the whole 7 × 64 × 64 stack (which, read at (j, o, k), is weight j at (o, k)), and
  the output window's block is the slab of the result at batch element t. What the body leaves in the output block at
  (0, o, T, R, C), for input blocks that are those slabs, is the specification's value at (t, o, T, R, C); so what point
  t writes back is block t of the specification's array. Every point writes its block back and the eight blocks tile
  the result array (the index (b, o, T, R, C) lies in the block of point b), so after the run the array is the
  specification's array everywhere. The eight argument arrays are written by nothing.
-/
import proofs.«155031_j28982439313416_1_alg».proof.Proof.KIValue
import proofs.«155031_j28982439313416_1_alg».proof.Proof.KIWeights
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.DirConv

variable (m : (ℓ : Loc nD τ sig) → Buf (Elt Ideal) ℓ) (ρ : Dev nD → PrngReg)

/-- The grid has eight points, one per batch element: at point t every window's block index is t on the batch axis
    (the weights' window has none and stays at its one block) and 0 on every other axis. -/
theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 3) = 0 ∧ win0_1.index t (1 : Fin 3) = 0 ∧ win0_1.index t (2 : Fin 3) = 0
    ∧ win0_2.index t (0 : Fin 5) = t.val ∧ win0_2.index t (1 : Fin 5) = 0 ∧ win0_2.index t (2 : Fin 5) = 0
    ∧ win0_2.index t (3 : Fin 5) = 0 ∧ win0_2.index t (4 : Fin 5) = 0 :=
  (by decide +kernel : ∀ t : Fin grid0.N, _)

theorem N8 : cfg0.N = 8 := N_0

/-- Point t as a batch coordinate. -/
def bat (t : Fin cfg0.N) : Fin 8 := ⟨t.val, lt_of_lt_of_eq t.isLt N8⟩

/-- The x window's block at point t, at (0, k, T, R, C), is argument 0 at (t, k, T, R, C). -/
theorem in0_apply (c : Dev nD) (t : Fin cfg0.N) (k : Fin 64) (T R C : Fin 32) :
    iblk m c 0 t (ix5 (0 : Fin 1) k T R C) = m ((c : Thread nD τ).loc main_arg0) (ix5 (bat t) k T R C) := by
  obtain ⟨e0, e1, e2, e3, e4, -⟩ := idx_facts t
  show V m c main_arg0 (((cfg0.win 0).blk t).view.emb (ix5 (0 : Fin 1) k T R C)) = _
  rw [V_main_arg0]
  refine congrArg (m ((c : Thread nD τ).loc main_arg0)) (funext fun a => Fin.ext ?_)
  match a with
  | ⟨0, _⟩ => show win0_0.index t (0 : Fin 5) * 1 + 1 * 0 = t.val; omega
  | ⟨1, _⟩ => show win0_0.index t (1 : Fin 5) * 64 + 1 * k.val = k.val; omega
  | ⟨2, _⟩ => show win0_0.index t (2 : Fin 5) * 32 + 1 * T.val = T.val; omega
  | ⟨3, _⟩ => show win0_0.index t (3 : Fin 5) * 32 + 1 * R.val = R.val; omega
  | ⟨4, _⟩ => show win0_0.index t (4 : Fin 5) * 32 + 1 * C.val = C.val; omega

/-- The weights' window's block at any point is the whole stack. -/
theorem in1_apply (c : Dev nD) (t : Fin cfg0.N) (j : Fin 7) (o k : Fin 64) :
    iblk m c 1 t (ix3 j o k) = V m c main_v7 (ix3 j o k) := by
  obtain ⟨-, -, -, -, -, e0, e1, e2, -⟩ := idx_facts t
  show V m c main_v7 (((cfg0.win 1).blk t).view.emb (ix3 j o k)) = _
  refine congrArg (V m c main_v7) (funext fun a => Fin.ext ?_)
  match a with
  | ⟨0, _⟩ => show win0_1.index t (0 : Fin 3) * 7 + 1 * j.val = j.val; omega
  | ⟨1, _⟩ => show win0_1.index t (1 : Fin 3) * 64 + 1 * o.val = o.val; omega
  | ⟨2, _⟩ => show win0_1.index t (2 : Fin 3) * 64 + 1 * k.val = k.val; omega

/-- The specification's array of the launch contents of the eight arguments, on core c. -/
abbrev GA (c : Dev nD) : S8x64x32x32x32.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What point t writes back is block t of the specification's array: at block coordinates (0, o, T, R, C) the body
    leaves the specification's value at (t, o, T, R, C), its input blocks being the arguments' at batch element t. -/
theorem flushed_eq (c : Dev nD) (t : Fin cfg0.N) :
    (dats m 0 c).flushed 2 t = ((cfg0.win 2).blk t).view.read (Elt Ideal) (GA m c) := by
  show (cfg0.win 2).cut (grid0.coords t) ((dats m 0 c).after 2 t) = _
  rw [after0_2]
  unfold outsAt0
  obtain ⟨-, -, -, -, -, -, -, -, e0, e1, e2, e3, e4⟩ := idx_facts t
  funext y
  obtain ⟨z, o, T, R, C, rfl⟩ : ∃ (z : Fin 1) (o : Fin 64) (T R C : Fin 32), y = ix5 z o T R C :=
    ⟨y 0, y 1, y 2, y 3, y 4, eq_ix5 y⟩
  obtain rfl : z = 0 := Subsingleton.elim _ _
  show out0_A_2 (F := Ideal) c (grid0.coords t) (ms0_0 t) (hs0_0 t) (ms0_1 t) (hs0_1 t) (ms0_2 t) (hs0_2 t) (iblk m c 0 t) (iblk m c 1 t)
      (ix5 (0 : Fin 1) o T R C) = GA m c (((cfg0.win 2).blk t).view.emb (ix5 (0 : Fin 1) o T R C))
  have hi : ((cfg0.win 2).blk t).view.emb (ix5 (0 : Fin 1) o T R C) = ix5 (bat t) o T R C := by
    funext a; apply Fin.ext
    match a with
    | ⟨0, _⟩ => show win0_2.index t (0 : Fin 5) * 1 + 1 * 0 = t.val; omega
    | ⟨1, _⟩ => show win0_2.index t (1 : Fin 5) * 64 + 1 * o.val = o.val; omega
    | ⟨2, _⟩ => show win0_2.index t (2 : Fin 5) * 32 + 1 * T.val = T.val; omega
    | ⟨3, _⟩ => show win0_2.index t (3 : Fin 5) * 32 + 1 * R.val = R.val; omega
    | ⟨4, _⟩ => show win0_2.index t (4 : Fin 5) * 32 + 1 * C.val = C.val; omega
  rw [hi]
  exact out_block_apply c (grid0.coords t) (ms0_0 t) (hs0_0 t) (ms0_1 t) (hs0_1 t) (ms0_2 t) (hs0_2 t) (iblk m c 0 t) (iblk m c 1 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bat t)
    (fun k T R C => in0_apply m c t k T R C)
    (fun o k => (in1_apply m c t 0 o k).trans (V_main_v7_apply_0 m c o k))
    (fun o k => (in1_apply m c t 1 o k).trans (V_main_v7_apply_1 m c o k))
    (fun o k => (in1_apply m c t 2 o k).trans (V_main_v7_apply_2 m c o k))
    (fun o k => (in1_apply m c t 3 o k).trans (V_main_v7_apply_3 m c o k))
    (fun o k => (in1_apply m c t 4 o k).trans (V_main_v7_apply_4 m c o k))
    (fun o k => (in1_apply m c t 5 o k).trans (V_main_v7_apply_5 m c o k))
    (fun o k => (in1_apply m c t 6 o k).trans (V_main_v7_apply_6 m c o k))
    o T R C

/-- An index of the result array is in point t's block iff each coordinate is in the block's range on its axis. -/
theorem mem_blk (t : Fin cfg0.N) (i : S8x64x32x32x32.Idx) :
    i ∈ ((cfg0.win 2).blk t).view.set ↔ ∀ a : Fin 5, win0_2.index t a * S1x64x32x32x32.size a ≤ (i a).val
      ∧ (i a).val < win0_2.index t a * S1x64x32x32x32.size a + S1x64x32x32x32.size a := by
  show i ∈ ((View.whole main_v8).slice (win0_2.rect t)).set ↔ _
  rw [View.set_slice_whole, Rect.mem_set_unit]
  exact Iff.rfl

/-- The eight blocks tile the result array: the index (b, o, T, R, C) is in the block of point b, and every point
    writes its block back. -/
theorem cover (i : S8x64x32x32x32.Idx) :
    ∃ t : Fin cfg0.N, (cfg0.win 2).flush t = true ∧ i ∈ ((cfg0.win 2).blk t).view.set := by
  have h0 : (i 0).val < 8 := (i 0).isLt
  have h1 : (i 1).val < 64 := (i 1).isLt
  have h2 : (i 2).val < 32 := (i 2).isLt
  have h3 : (i 3).val < 32 := (i 3).isLt
  have h4 : (i 4).val < 32 := (i 4).isLt
  refine ⟨⟨(i 0).val, lt_of_lt_of_eq h0 N8.symm⟩, flush0_2 _, ?_⟩
  obtain ⟨-, -, -, -, -, -, -, -, e0, e1, e2, e3, e4⟩ := idx_facts ⟨(i 0).val, lt_of_lt_of_eq h0 N8.symm⟩
  rw [mem_blk]
  intro a
  match a with
  | ⟨0, _⟩ => show win0_2.index _ (0 : Fin 5) * 1 ≤ (i 0).val ∧ (i 0).val < win0_2.index _ (0 : Fin 5) * 1 + 1; rw [e0]; show (i 0).val * 1 ≤ (i 0).val ∧ (i 0).val < (i 0).val * 1 + 1; omega
  | ⟨1, _⟩ => show win0_2.index _ (1 : Fin 5) * 64 ≤ (i 1).val ∧ (i 1).val < win0_2.index _ (1 : Fin 5) * 64 + 64; rw [e1]; omega
  | ⟨2, _⟩ => show win0_2.index _ (2 : Fin 5) * 32 ≤ (i 2).val ∧ (i 2).val < win0_2.index _ (2 : Fin 5) * 32 + 32; rw [e2]; omega
  | ⟨3, _⟩ => show win0_2.index _ (3 : Fin 5) * 32 ≤ (i 3).val ∧ (i 3).val < win0_2.index _ (3 : Fin 5) * 32 + 32; rw [e3]; omega
  | ⟨4, _⟩ => show win0_2.index _ (4 : Fin 5) * 32 ≤ (i 4).val ∧ (i 4).val < win0_2.index _ (4 : Fin 5) * 32 + 32; rw [e4]; omega

/-- The result array after the run is the specification's array of the launch contents. -/
theorem final (c : Dev nD) : (dats m 0 c).arrAt 2 cfg0.N = GA m c :=
  (dats m 0 c).arrAt_eq_of_cover 2 (GA m c) (fun t _ => flushed_eq m c t) cover

/-- From the launch state every weakly fair execution of the program terminates without a fault, leaves in the
    result array the specification's function of the eight argument arrays as launched, and leaves the eight
    argument arrays as they were. -/
theorem run_value : θ_run (defs (F := Ideal)) (onTc (τ := τ) (main (F := Ideal))) ⟨m, fun _ => 0, ρ⟩ (fun r => ∀ c : Dev nD,
      r.2.mem ((c.tc : Thread nD τ).loc main_v8) = Cert.DirConv.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

end Cert.KernelIdeal.Hand

end
-- ==== Proof.RefValue.lean ====
/-
  The reference program's result, read index by index, is the specification G.

  The reference moves the channel axis of x to the last place, so that the array it works on is indexed
  (b, t, r, c, k), and mixes the channels by a weight w in one contraction: at (b, t, r, c, o) the mixing stage holds
  Σ_k x(b,k,t,r,c) · w(o,k), which is  proj w x b o t r c  after commuting each product. For an axis and a direction it
  mixes the sub-array without the last (or without the first) position of that axis and puts the result back to full
  extent with one layer of the scalar 0 in front (or behind): read at a position, that is the mixing at the previous
  (or next) position where there is one, and 0 where there is none, which is the way the specification writes its six
  shifted terms. The seven stages are added in the specification's own order, self, t+, t-, r+, r-, c+, c-, and the
  last step moves the channel axis back to the second place. No property of the entries is used: products are
  commuted, nothing else.
-/
import proofs.«155031_j28982439313416_1_alg».proof.Proof.Gen.ReferenceIdeal.Read
import proofs.«155031_j28982439313416_1_alg».proof.Proof.Spec
import Idealize.ShloMosaic.Lib.KernelVsHost

noncomputable section

namespace Cert.DirConv.Ref

open Cert.ReferenceIdeal Cert.ReferenceIdeal.Gen Cert.ReferenceIdeal.Read
open Idealize.ShloMosaic Idealize.ShloMosaic.ValueIdx
open scoped BigOperators

/-- An argument array of the shape of x, and one of the shape of a weight, over the extended reals. -/
abbrev XT := (⟨S8x64x32x32x32, .f32⟩ : BufTy).Contents (Elt Ideal)
abbrev WT := (⟨S64x64, .f32⟩ : BufTy).Contents (Elt Ideal)

/-! ## The transposed array and the padding scalar -/

/-- The transposed array at (b, t, r, c, k) is x at (b, k, t, r, c). -/
theorem v0_ix (x0 : XT) (b : Fin 8) (t r c : Fin 32) (k : Fin 64) :
    val_main_v0 (F := Ideal) x0 (ix5 b t r c k) = x0 (ix5 b k t r c) := by
  rw [val_main_v0_apply]
  exact congrArg x0 (funext fun a => by
    match a with | ⟨0, _⟩ => rfl | ⟨1, _⟩ => rfl | ⟨2, _⟩ => rfl | ⟨3, _⟩ => rfl | ⟨4, _⟩ => rfl)

/-- The padding scalar, the integer zero converted, is the extended real 0. -/
theorem padv_zero (j : S_.Idx) : (sitofp .f32 (constantI S_ 32 0#32) : FVec Ideal S_ .f32) j = (0 : EReal) := by
  show ((((0#32 : BitVec 32).toInt : ℤ) : ℝ) : EReal) = 0
  simp

/-- The unshifted mixing stage at (b, t, r, c, o) is the channel mixing by the first weight at the position. -/
theorem self_ix (x0 : XT) (x1 : WT) (b : Fin 8) (o : Fin 64) (t r c : Fin 32) :
    val_main_v1 (F := Ideal) x0 x1 (ix5 b t r c o) = proj x1 x0 b o t r c := by
  rw [val_main_v1_apply]
  unfold proj
  refine Finset.sum_congr rfl fun k _ => ?_
  rw [mul_comm]
  have e1 : lidx_main_v1 (ix5 b t r c o) k = ix5 b t r c k := funext fun a => by
    match a with | ⟨0, _⟩ => rfl | ⟨1, _⟩ => rfl | ⟨2, _⟩ => rfl | ⟨3, _⟩ => rfl | ⟨4, _⟩ => rfl
  have e2 : ridx_main_v1 (ix5 b t r c o) k = ix2 o k := funext fun a => by
    match a with | ⟨0, _⟩ => rfl | ⟨1, _⟩ => rfl
  rw [e1, e2, v0_ix]

/-! ## The t axis -/

/-- The mixing stage over the positions 0 … 30 of the t axis, at (b, t', r, c, o), is the channel mixing at t'. -/
theorem v3_ix (x0 : XT) (x2 : WT) (b : Fin 8) (o : Fin 64) (t' : Fin 31) (r c : Fin 32) :
    val_main_v3 (F := Ideal) x0 x2 (ix5 b t' r c o) = proj x2 x0 b o ⟨t'.val, by have := t'.isLt; omega⟩ r c := by
  rw [val_main_v3_apply]
  unfold proj
  refine Finset.sum_congr rfl fun k _ => ?_
  rw [mul_comm]
  have e1 : lidx_main_v3 (ix5 b t' r c o) k = ix5 b t' r c k := funext fun a => by
    match a with | ⟨0, _⟩ => rfl | ⟨1, _⟩ => rfl | ⟨2, _⟩ => rfl | ⟨3, _⟩ => rfl | ⟨4, _⟩ => rfl
  have e2 : ridx_main_v3 (ix5 b t' r c o) k = ix2 o k := funext fun a => by
    match a with | ⟨0, _⟩ => rfl | ⟨1, _⟩ => rfl
  have e3 : idx_main_v2 (ix5 b t' r c k) = ix5 b (⟨t'.val, by have := t'.isLt; omega⟩ : Fin 32) r c k := funext fun a => by
    match a with | ⟨0, _⟩ => rfl | ⟨1, _⟩ => rfl | ⟨2, _⟩ => rfl | ⟨3, _⟩ => rfl | ⟨4, _⟩ => rfl
  rw [e1, e2, val_main_v2_apply, e3, v0_ix]

/-- The "plus" term of the t axis: the mixing stage shifted forward by one position with a zero in front. -/
theorem tp_ix (x0 : XT) (x2 : WT) (b : Fin 8) (o : Fin 64) (t r c : Fin 32) :
    val_main_v4 (F := Ideal) x0 x2 (ix5 b t r c o) = tTp x0 x2 b o t r c := by
  unfold tTp val_main_v4
  by_cases h : 0 < t.val
  · rw [if_pos h, pad_apply_of_inside _ _ _ _ _ _ _ (ix5 b t r c o)
      (ix5 b (⟨t.val - 1, by have := t.isLt; omega⟩ : Fin 31) r c o) (fun a => by
        match a with
        | ⟨0, _⟩ => show b.val = 0 + b.val * (0 + 1); omega
        | ⟨1, _⟩ => show t.val = 1 + (t.val - 1) * (0 + 1); omega
        | ⟨2, _⟩ => show r.val = 0 + r.val * (0 + 1); omega
        | ⟨3, _⟩ => show c.val = 0 + c.val * (0 + 1); omega
        | ⟨4, _⟩ => show o.val = 0 + o.val * (0 + 1); omega)]
    rw [v3_ix]
    rfl
  · rw [if_neg h, pad_apply_of_not_inside _ _ _ _ _ _ _ (ix5 b t r c o) ⟨1, by decide⟩ (by
        show ¬(1 ≤ t.val ∧ (t.val - 1) % (0 + 1) = 0 ∧ (t.val - 1) / (0 + 1) < 31)
        omega)]
    exact padv_zero _

/-- The mixing stage over the positions 1 … 31 of the t axis, at (b, t', r, c, o), is the channel mixing at t' + 1. -/
theorem v7_ix (x0 : XT) (x3 : WT) (b : Fin 8) (o : Fin 64) (t' : Fin 31) (r c : Fin 32) :
    val_main_v7 (F := Ideal) x0 x3 (ix5 b t' r c o) = proj x3 x0 b o ⟨1 + t'.val, by have := t'.isLt; omega⟩ r c := by
  rw [val_main_v7_apply]
  unfold proj
  refine Finset.sum_congr rfl fun k _ => ?_
  rw [mul_comm]
  have e1 : lidx_main_v7 (ix5 b t' r c o) k = ix5 b t' r c k := funext fun a => by
    match a with | ⟨0, _⟩ => rfl | ⟨1, _⟩ => rfl | ⟨2, _⟩ => rfl | ⟨3, _⟩ => rfl | ⟨4, _⟩ => rfl
  have e2 : ridx_main_v7 (ix5 b t' r c o) k = ix2 o k := funext fun a => by
    match a with | ⟨0, _⟩ => rfl | ⟨1, _⟩ => rfl
  have e3 : idx_main_v6 (ix5 b t' r c k) = ix5 b (⟨1 + t'.val, by have := t'.isLt; omega⟩ : Fin 32) r c k := funext fun a => by
    match a with | ⟨0, _⟩ => rfl | ⟨1, _⟩ => rfl | ⟨2, _⟩ => rfl | ⟨3, _⟩ => rfl | ⟨4, _⟩ => rfl
  rw [e1, e2, val_main_v6_apply, e3, v0_ix]

/-- The "minus" term of the t axis: the mixing stage of the positions 1 … 31 with a zero behind. -/
theorem tm_ix (x0 : XT) (x3 : WT) (b : Fin 8) (o : Fin 64) (t r c : Fin 32) :
    val_main_v8 (F := Ideal) x0 x3 (ix5 b t r c o) = tTm x0 x3 b o t r c := by
  unfold tTm val_main_v8
  by_cases h : t.val < 31
  · rw [if_pos h, pad_apply_of_inside _ _ _ _ _ _ _ (ix5 b t r c o)
      (ix5 b (⟨t.val, h⟩ : Fin 31) r c o) (fun a => by
        match a with
        | ⟨0, _⟩ => show b.val = 0 + b.val * (0 + 1); omega
        | ⟨1, _⟩ => show t.val = 0 + t.val * (0 + 1); omega
        | ⟨2, _⟩ => show r.val = 0 + r.val * (0 + 1); omega
        | ⟨3, _⟩ => show c.val = 0 + c.val * (0 + 1); omega
        | ⟨4, _⟩ => show o.val = 0 + o.val * (0 + 1); omega)]
    rw [v7_ix]
    exact congrArg (fun n => proj x3 x0 b o n r c) (Fin.ext (by
      show 1 + t.val = (t.val + 1) % 32
      omega))
  · rw [if_neg h, pad_apply_of_not_inside _ _ _ _ _ _ _ (ix5 b t r c o) ⟨1, by decide⟩ (by
        show ¬(0 ≤ t.val ∧ (t.val - 0) % (0 + 1) = 0 ∧ (t.val - 0) / (0 + 1) < 31)
        omega)]
    exact padv_zero _

/-! ## The r axis -/

/-- The mixing stage over the positions 0 … 30 of the r axis, at (b, t, r', c, o), is the channel mixing at r'. -/
theorem v11_ix (x0 : XT) (x4 : WT) (b : Fin 8) (o : Fin 64) (t : Fin 32) (r' : Fin 31) (c : Fin 32) :
    val_main_v11 (F := Ideal) x0 x4 (ix5 b t r' c o) = proj x4 x0 b o t ⟨r'.val, by have := r'.isLt; omega⟩ c := by
  rw [val_main_v11_apply]
  unfold proj
  refine Finset.sum_congr rfl fun k _ => ?_
  rw [mul_comm]
  have e1 : lidx_main_v11 (ix5 b t r' c o) k = ix5 b t r' c k := funext fun a => by
    match a with | ⟨0, _⟩ => rfl | ⟨1, _⟩ => rfl | ⟨2, _⟩ => rfl | ⟨3, _⟩ => rfl | ⟨4, _⟩ => rfl
  have e2 : ridx_main_v11 (ix5 b t r' c o) k = ix2 o k := funext fun a => by
    match a with | ⟨0, _⟩ => rfl | ⟨1, _⟩ => rfl
  have e3 : idx_main_v10 (ix5 b t r' c k) = ix5 b t (⟨r'.val, by have := r'.isLt; omega⟩ : Fin 32) c k := funext fun a => by
    match a with | ⟨0, _⟩ => rfl | ⟨1, _⟩ => rfl | ⟨2, _⟩ => rfl | ⟨3, _⟩ => rfl | ⟨4, _⟩ => rfl
  rw [e1, e2, val_main_v10_apply, e3, v0_ix]

/-- The "plus" term of the r axis. -/
theorem rp_ix (x0 : XT) (x4 : WT) (b : Fin 8) (o : Fin 64) (t r c : Fin 32) :
    val_main_v12 (F := Ideal) x0 x4 (ix5 b t r c o) = tRp x0 x4 b o t r c := by
  unfold tRp val_main_v12
  by_cases h : 0 < r.val
  · rw [if_pos h, pad_apply_of_inside _ _ _ _ _ _ _ (ix5 b t r c o)
      (ix5 b t (⟨r.val - 1, by have := r.isLt; omega⟩ : Fin 31) c o) (fun a => by
        match a with
        | ⟨0, _⟩ => show b.val = 0 + b.val * (0 + 1); omega
        | ⟨1, _⟩ => show t.val = 0 + t.val * (0 + 1); omega
        | ⟨2, _⟩ => show r.val = 1 + (r.val - 1) * (0 + 1); omega
        | ⟨3, _⟩ => show c.val = 0 + c.val * (0 + 1); omega
        | ⟨4, _⟩ => show o.val = 0 + o.val * (0 + 1); omega)]
    rw [v11_ix]
    rfl
  · rw [if_neg h, pad_apply_of_not_inside _ _ _ _ _ _ _ (ix5 b t r c o) ⟨2, by decide⟩ (by
        show ¬(1 ≤ r.val ∧ (r.val - 1) % (0 + 1) = 0 ∧ (r.val - 1) / (0 + 1) < 31)
        omega)]
    exact padv_zero _

/-- The mixing stage over the positions 1 … 31 of the r axis, at (b, t, r', c, o), is the channel mixing at r' + 1. -/
theorem v15_ix (x0 : XT) (x5 : WT) (b : Fin 8) (o : Fin 64) (t : Fin 32) (r' : Fin 31) (c : Fin 32) :
    val_main_v15 (F := Ideal) x0 x5 (ix5 b t r' c o) = proj x5 x0 b o t ⟨1 + r'.val, by have := r'.isLt; omega⟩ c := by
  rw [val_main_v15_apply]
  unfold proj
  refine Finset.sum_congr rfl fun k _ => ?_
  rw [mul_comm]
  have e1 : lidx_main_v15 (ix5 b t r' c o) k = ix5 b t r' c k := funext fun a => by
    match a with | ⟨0, _⟩ => rfl | ⟨1, _⟩ => rfl | ⟨2, _⟩ => rfl | ⟨3, _⟩ => rfl | ⟨4, _⟩ => rfl
  have e2 : ridx_main_v15 (ix5 b t r' c o) k = ix2 o k := funext fun a => by
    match a with | ⟨0, _⟩ => rfl | ⟨1, _⟩ => rfl
  have e3 : idx_main_v14 (ix5 b t r' c k) = ix5 b t (⟨1 + r'.val, by have := r'.isLt; omega⟩ : Fin 32) c k := funext fun a => by
    match a with | ⟨0, _⟩ => rfl | ⟨1, _⟩ => rfl | ⟨2, _⟩ => rfl | ⟨3, _⟩ => rfl | ⟨4, _⟩ => rfl
  rw [e1, e2, val_main_v14_apply, e3, v0_ix]

/-- The "minus" term of the r axis. -/
theorem rm_ix (x0 : XT) (x5 : WT) (b : Fin 8) (o : Fin 64) (t r c : Fin 32) :
    val_main_v16 (F := Ideal) x0 x5 (ix5 b t r c o) = tRm x0 x5 b o t r c := by
  unfold tRm val_main_v16
  by_cases h : r.val < 31
  · rw [if_pos h, pad_apply_of_inside _ _ _ _ _ _ _ (ix5 b t r c o)
      (ix5 b t (⟨r.val, h⟩ : Fin 31) c o) (fun a => by
        match a with
        | ⟨0, _⟩ => show b.val = 0 + b.val * (0 + 1); omega
        | ⟨1, _⟩ => show t.val = 0 + t.val * (0 + 1); omega
        | ⟨2, _⟩ => show r.val = 0 + r.val * (0 + 1); omega
        | ⟨3, _⟩ => show c.val = 0 + c.val * (0 + 1); omega
        | ⟨4, _⟩ => show o.val = 0 + o.val * (0 + 1); omega)]
    rw [v15_ix]
    exact congrArg (fun n => proj x5 x0 b o t n c) (Fin.ext (by
      show 1 + r.val = (r.val + 1) % 32
      omega))
  · rw [if_neg h, pad_apply_of_not_inside _ _ _ _ _ _ _ (ix5 b t r c o) ⟨2, by decide⟩ (by
        show ¬(0 ≤ r.val ∧ (r.val - 0) % (0 + 1) = 0 ∧ (r.val - 0) / (0 + 1) < 31)
        omega)]
    exact padv_zero _

/-! ## The c axis -/

/-- The mixing stage over the positions 0 … 30 of the c axis, at (b, t, r, c', o), is the channel mixing at c'. -/
theorem v19_ix (x0 : XT) (x6 : WT) (b : Fin 8) (o : Fin 64) (t r : Fin 32) (c' : Fin 31) :
    val_main_v19 (F := Ideal) x0 x6 (ix5 b t r c' o) = proj x6 x0 b o t r ⟨c'.val, by have := c'.isLt; omega⟩ := by
  rw [val_main_v19_apply]
  unfold proj
  refine Finset.sum_congr rfl fun k _ => ?_
  rw [mul_comm]
  have e1 : lidx_main_v19 (ix5 b t r c' o) k = ix5 b t r c' k := funext fun a => by
    match a with | ⟨0, _⟩ => rfl | ⟨1, _⟩ => rfl | ⟨2, _⟩ => rfl | ⟨3, _⟩ => rfl | ⟨4, _⟩ => rfl
  have e2 : ridx_main_v19 (ix5 b t r c' o) k = ix2 o k := funext fun a => by
    match a with | ⟨0, _⟩ => rfl | ⟨1, _⟩ => rfl
  have e3 : idx_main_v18 (ix5 b t r c' k) = ix5 b t r (⟨c'.val, by have := c'.isLt; omega⟩ : Fin 32) k := funext fun a => by
    match a with | ⟨0, _⟩ => rfl | ⟨1, _⟩ => rfl | ⟨2, _⟩ => rfl | ⟨3, _⟩ => rfl | ⟨4, _⟩ => rfl
  rw [e1, e2, val_main_v18_apply, e3, v0_ix]

/-- The "plus" term of the c axis. -/
theorem cp_ix (x0 : XT) (x6 : WT) (b : Fin 8) (o : Fin 64) (t r c : Fin 32) :
    val_main_v20 (F := Ideal) x0 x6 (ix5 b t r c o) = tCp x0 x6 b o t r c := by
  unfold tCp val_main_v20
  by_cases h : 0 < c.val
  · rw [if_pos h, pad_apply_of_inside _ _ _ _ _ _ _ (ix5 b t r c o)
      (ix5 b t r (⟨c.val - 1, by have := c.isLt; omega⟩ : Fin 31) o) (fun a => by
        match a with
        | ⟨0, _⟩ => show b.val = 0 + b.val * (0 + 1); omega
        | ⟨1, _⟩ => show t.val = 0 + t.val * (0 + 1); omega
        | ⟨2, _⟩ => show r.val = 0 + r.val * (0 + 1); omega
        | ⟨3, _⟩ => show c.val = 1 + (c.val - 1) * (0 + 1); omega
        | ⟨4, _⟩ => show o.val = 0 + o.val * (0 + 1); omega)]
    rw [v19_ix]
    rfl
  · rw [if_neg h, pad_apply_of_not_inside _ _ _ _ _ _ _ (ix5 b t r c o) ⟨3, by decide⟩ (by
        show ¬(1 ≤ c.val ∧ (c.val - 1) % (0 + 1) = 0 ∧ (c.val - 1) / (0 + 1) < 31)
        omega)]
    exact padv_zero _

/-- The mixing stage over the positions 1 … 31 of the c axis, at (b, t, r, c', o), is the channel mixing at c' + 1. -/
theorem v23_ix (x0 : XT) (x7 : WT) (b : Fin 8) (o : Fin 64) (t r : Fin 32) (c' : Fin 31) :
    val_main_v23 (F := Ideal) x0 x7 (ix5 b t r c' o) = proj x7 x0 b o t r ⟨1 + c'.val, by have := c'.isLt; omega⟩ := by
  rw [val_main_v23_apply]
  unfold proj
  refine Finset.sum_congr rfl fun k _ => ?_
  rw [mul_comm]
  have e1 : lidx_main_v23 (ix5 b t r c' o) k = ix5 b t r c' k := funext fun a => by
    match a with | ⟨0, _⟩ => rfl | ⟨1, _⟩ => rfl | ⟨2, _⟩ => rfl | ⟨3, _⟩ => rfl | ⟨4, _⟩ => rfl
  have e2 : ridx_main_v23 (ix5 b t r c' o) k = ix2 o k := funext fun a => by
    match a with | ⟨0, _⟩ => rfl | ⟨1, _⟩ => rfl
  have e3 : idx_main_v22 (ix5 b t r c' k) = ix5 b t r (⟨1 + c'.val, by have := c'.isLt; omega⟩ : Fin 32) k := funext fun a => by
    match a with | ⟨0, _⟩ => rfl | ⟨1, _⟩ => rfl | ⟨2, _⟩ => rfl | ⟨3, _⟩ => rfl | ⟨4, _⟩ => rfl
  rw [e1, e2, val_main_v22_apply, e3, v0_ix]

/-- The "minus" term of the c axis. -/
theorem cm_ix (x0 : XT) (x7 : WT) (b : Fin 8) (o : Fin 64) (t r c : Fin 32) :
    val_main_v24 (F := Ideal) x0 x7 (ix5 b t r c o) = tCm x0 x7 b o t r c := by
  unfold tCm val_main_v24
  by_cases h : c.val < 31
  · rw [if_pos h, pad_apply_of_inside _ _ _ _ _ _ _ (ix5 b t r c o)
      (ix5 b t r (⟨c.val, h⟩ : Fin 31) o) (fun a => by
        match a with
        | ⟨0, _⟩ => show b.val = 0 + b.val * (0 + 1); omega
        | ⟨1, _⟩ => show t.val = 0 + t.val * (0 + 1); omega
        | ⟨2, _⟩ => show r.val = 0 + r.val * (0 + 1); omega
        | ⟨3, _⟩ => show c.val = 0 + c.val * (0 + 1); omega
        | ⟨4, _⟩ => show o.val = 0 + o.val * (0 + 1); omega)]
    rw [v23_ix]
    exact congrArg (fun n => proj x7 x0 b o t r n) (Fin.ext (by
      show 1 + c.val = (c.val + 1) % 32
      omega))
  · rw [if_neg h, pad_apply_of_not_inside _ _ _ _ _ _ _ (ix5 b t r c o) ⟨3, by decide⟩ (by
        show ¬(0 ≤ c.val ∧ (c.val - 0) % (0 + 1) = 0 ∧ (c.val - 0) / (0 + 1) < 31)
        omega)]
    exact padv_zero _

/-! ## The result -/

/-- The reference's result is the specification: at (b, o, t, r, c) it is the sum, in the specification's order, of the
    seven stages read at (b, t, r, c, o). -/
theorem ref_eq_G (x0 : (⟨Cert.ReferenceIdeal.S8x64x32x32x32, .f32⟩ : BufTy).Contents (Elt Ideal)) (x1 x2 x3 x4 x5 x6 x7 : (⟨Cert.ReferenceIdeal.S64x64, .f32⟩ : BufTy).Contents (Elt Ideal)) :
    Cert.ReferenceIdeal.Read.val_main_v26 (F := Ideal) x0 x1 x2 x3 x4 x5 x6 x7 = Cert.DirConv.G x0 x1 x2 x3 x4 x5 x6 x7 := by
  funext i
  obtain ⟨b, o, t, r, c, rfl⟩ : ∃ (b : Fin 8) (o : Fin 64) (t r c : Fin 32), i = ix5 b o t r c :=
    ⟨i 0, i 1, i 2, i 3, i 4, eq_ix5 i⟩
  have e : idx_main_v26 (ix5 b o t r c) = ix5 b t r c o := funext fun a => by
    match a with | ⟨0, _⟩ => rfl | ⟨1, _⟩ => rfl | ⟨2, _⟩ => rfl | ⟨3, _⟩ => rfl | ⟨4, _⟩ => rfl
  rw [val_main_v26_apply, e, val_main_v25_apply, val_main_v21_apply, val_main_v17_apply, val_main_v13_apply,
    val_main_v9_apply, val_main_v5_apply, self_ix, tp_ix, tm_ix, rp_ix, rm_ix, cp_ix, cm_ix, G_ix5]
  rfl

end Cert.DirConv.Ref

end
-- ==== Proof.lean ====
/-
  The certificate of the directional 3-D convolution: a Pallas kernel against its jnp reference, equal over the
  extended reals.

  x has shape (8, 64, 32, 32, 32) over (b, k, t, r, c); seven 64 × 64 weights mix the channel axis. The result at
  (b, o, t, r, c) is Σ_k w_self(o,k)·x(b,k,t,r,c) plus, for each of the three spatial axes, the mixing by the "plus"
  weight of x at the previous position along that axis and by the "minus" weight at the next position, a term being
  absent at the border (Proof/Spec.lean states this as one function G of the eight arguments).
  The reference transposes the channel axis last, forms the seven mixings as contractions of slices, pads each
  shifted one with a zero slab, adds them in the order self, t+, t-, r+, r-, c+, c-, and transposes back: read index
  by index this is G (Proof/RefValue.lean, over the generated reference run).
  The kernel runs one grid point per batch element b on the whole (64, 32, 32, 32) block, in two halves of the t
  axis; in each half it stores the mixing by w_self and then adds, through six read-modify-write stores on shifted
  rectangles of its own output block, the other six mixings (those along r and c first, those along t last): at
  each index the block ends at the same seven terms in another order (Proof/Payloads.lean reads each store's value
  as a 64-term sum; Proof/KIValue.lean composes the fourteen stores; Proof/KIFinal.lean reads the blocks back as the
  whole array). Addition of extended reals being commutative and associative with neutral element 0, the two
  orders give one value; nothing needs the entries to be finite, so the precondition is never opened.
  The three frames: the kernel program, at the word-level and at the exact instance, runs to its end without a
  fault and leaves its arguments untouched — its @main is seven broadcasts and one concatenation on the host, then the
  region, whose body is run symbolically once for any float instance (Proof/KKit, KRun, KFrame and KIKit, KIRun,
  KIFrame) —, and the reference's frame is its generated run with the result dropped. The idealization rewrote no
  operation, so the fourth conjunct is trivial.
-/
import proofs.«155031_j28982439313416_1_alg».proof.Defs
import proofs.«155031_j28982439313416_1_alg».proof.Proof.Gen.Kernel
import proofs.«155031_j28982439313416_1_alg».proof.Proof.Gen.Kernel.Skeleton
import proofs.«155031_j28982439313416_1_alg».proof.Proof.Gen.Kernel.Launch
import proofs.«155031_j28982439313416_1_alg».proof.Proof.Gen.Kernel.Points
import proofs.«155031_j28982439313416_1_alg».proof.Proof.Gen.KernelIdeal
import proofs.«155031_j28982439313416_1_alg».proof.Proof.Gen.KernelIdeal.Skeleton
import proofs.«155031_j28982439313416_1_alg».proof.Proof.Gen.KernelIdeal.Launch
import proofs.«155031_j28982439313416_1_alg».proof.Proof.Gen.KernelIdeal.Points
import proofs.«155031_j28982439313416_1_alg».proof.Proof.Gen.ReferenceIdeal
import proofs.«155031_j28982439313416_1_alg».proof.Proof.Gen.Pre_finite_inputs
import proofs.«155031_j28982439313416_1_alg».proof.Proof.Gen.ReferenceIdeal.Read
import proofs.«155031_j28982439313416_1_alg».proof.Proof.KFrame
import proofs.«155031_j28982439313416_1_alg».proof.Proof.KIFrame
import proofs.«155031_j28982439313416_1_alg».proof.Proof.KIFinal
import proofs.«155031_j28982439313416_1_alg».proof.Proof.RefValue
import Idealize.ShloMosaic.Adequacy
import Idealize.ShloMosaic.Init

noncomputable section

namespace Cert.Proof

open Idealize.ShloMosaic Idealize.ShloMosaic.TcCoe Idealize.SL.Sem

/-- The kernel program at the word-level instance runs to its end and leaves its arguments as they were. -/
theorem frame_k : Cert.frame_Kernel := fun m ρ _ => Cert.Kernel.Hand.frame (F := Bits) m ρ

/-- The same program read at the exact instance. -/
theorem frame_ki : Cert.frame_KernelIdeal := fun m ρ _ => Cert.KernelIdeal.Hand.frame (F := Ideal) m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end, from memories agreeing on the arguments, at the array G of those arguments. -/
theorem algebraic : Cert.algebraic_KernelIdeal_ReferenceIdeal := by
  intro m ρ m' ρ' _ hagree
  refine ⟨fun c => Cert.DirConv.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.DirConv.Ref.ref_eq_G,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
